-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128x768 : Shape := ⟨3, ![1024, 128, 768]⟩
abbrev S31x8x8x8 : Shape := ⟨4, ![31, 8, 8, 8]⟩
abbrev S_ : Shape := ⟨0, ![]⟩

class Facts : Prop where
  bcast_S_S1024x128x768 : S_.BroadcastsInDim S1024x128x768 (![] : Fin 0 → Fin S1024x128x768.rank)
  reducesTo_S1024x128x768_S_d0_1_2 : S1024x128x768.ReducesTo [0, 1, 2] S_
  h_S_ : 0 < S_.numel
  bcast_S_S31x8x8x8 : S_.BroadcastsInDim S31x8x8x8 (![] : Fin 0 → Fin S31x8x8x8.rank)
  reducesTo_S31x8x8x8_S_d0_1_2_3 : S31x8x8x8.ReducesTo [0, 1, 2, 3] S_

variable [Facts]

def fn {F : FTy → Type} [FloatOps F] (main_arg0 : FVec F S1024x128x768 .f32) (main_arg1 : FVec F S31x8x8x8 .f32) : IVec S_ 1 :=
  let main_v0 : FVec F S1024x128x768 .f32 := Host.absf main_arg0
  let main_cst : FVec F S_ .f32 := constant S_ .f32 0x7F800000#32
  let main_v1 : FVec F S1024x128x768 .f32 := broadcastInDim S1024x128x768 ![] bcast_S_S1024x128x768 main_cst
  let main_v2 : IVec S1024x128x768 1 := cmpf .olt main_v0 main_v1
  let main_c : IVec S_ 1 := constantI S_ 1 1#1
  let main_v3 : IVec S_ 1 := (fun x v => Host.reduce IntOp.andi x v reducesTo_S1024x128x768_S_d0_1_2 h_S_) main_v2 main_c
  let main_v4 : FVec F S31x8x8x8 .f32 := Host.absf main_arg1
  let main_cst_0 : FVec F S_ .f32 := constant S_ .f32 0x7F800000#32
  let main_v5 : FVec F S31x8x8x8 .f32 := broadcastInDim S31x8x8x8 ![] bcast_S_S31x8x8x8 main_cst_0
  let main_v6 : IVec S31x8x8x8 1 := cmpf .olt main_v4 main_v5
  let main_c_1 : IVec S_ 1 := constantI S_ 1 1#1
  let main_v7 : IVec S_ 1 := (fun x v => Host.reduce IntOp.andi x v reducesTo_S31x8x8x8_S_d0_1_2_3 h_S_) main_v6 main_c_1
  let main_v8 : IVec S_ 1 := andi main_v3 main_v7
  main_v8
-- ==== Kernel.lean ====
abbrev S1024x128x768 : Shape := ⟨3, ![1024, 128, 768]⟩
abbrev S31x8x8x8 : Shape := ⟨4, ![31, 8, 8, 8]⟩
abbrev S16 : Shape := ⟨1, ![16]⟩
abbrev S16x1 : Shape := ⟨2, ![16, 1]⟩
abbrev S1x16 : Shape := ⟨2, ![1, 16]⟩
abbrev S16x16 : Shape := ⟨2, ![16, 16]⟩
abbrev S_ : Shape := ⟨0, ![]⟩
abbrev S16x16x1 : Shape := ⟨3, ![16, 16, 1]⟩
abbrev S16x16x8x8x8 : Shape := ⟨5, ![16, 16, 8, 8, 8]⟩
abbrev S16x8x16x8x8 : Shape := ⟨5, ![16, 8, 16, 8, 8]⟩
abbrev S128x128x8 : Shape := ⟨3, ![128, 128, 8]⟩
abbrev S8x128x128 : Shape := ⟨3, ![8, 128, 128]⟩
abbrev S1024x128x256 : Shape := ⟨3, ![1024, 128, 256]⟩
abbrev S32x128x768 : Shape := ⟨3, ![32, 128, 768]⟩
abbrev S32x128x256 : Shape := ⟨3, ![32, 128, 256]⟩
abbrev S1x128x768 : Shape := ⟨3, ![1, 128, 768]⟩
abbrev S128x768 : Shape := ⟨2, ![128, 768]⟩
abbrev S128x32 : Shape := ⟨2, ![128, 32]⟩
abbrev S128x128 : Shape := ⟨2, ![128, 128]⟩
abbrev S1x128x128 : Shape := ⟨3, ![1, 128, 128]⟩
abbrev S128 : Shape := ⟨1, ![128]⟩
abbrev S128x1 : Shape := ⟨2, ![128, 1]⟩
abbrev S128x256 : Shape := ⟨2, ![128, 256]⟩
abbrev S1x128x256 : Shape := ⟨3, ![1, 128, 256]⟩

abbrev nBuf : Space → Nat
  | .hbm => 25
  | .vmem => 5
  | .smem => 0
  | _ => 0

abbrev bufTy : (tb : Table) → Fin (tcTables nBuf tb) → BufTy
  | .hbm, ⟨0, _⟩ => ⟨S1024x128x768, .f32⟩
  | .hbm, ⟨1, _⟩ => ⟨S31x8x8x8, .f32⟩
  | .hbm, ⟨2, _⟩ => ⟨S16, .i32⟩
  | .hbm, ⟨3, _⟩ => ⟨S16x1, .i32⟩
  | .hbm, ⟨4, _⟩ => ⟨S16, .i32⟩
  | .hbm, ⟨5, _⟩ => ⟨S1x16, .i32⟩
  | .hbm, ⟨6, _⟩ => ⟨S16x16, .i32⟩
  | .hbm, ⟨7, _⟩ => ⟨S16x16, .i32⟩
  | .hbm, ⟨8, _⟩ => ⟨S16x16, .i32⟩
  | .hbm, ⟨9, _⟩ => ⟨S_, .i32⟩
  | .hbm, ⟨10, _⟩ => ⟨S16x16, .i32⟩
  | .hbm, ⟨11, _⟩ => ⟨S16x16, .i32⟩
  | .hbm, ⟨12, _⟩ => ⟨S_, .i32⟩
  | .hbm, ⟨13, _⟩ => ⟨S16x16, .i32⟩
  | .hbm, ⟨14, _⟩ => ⟨S16x16, .i1⟩
  | .hbm, ⟨15, _⟩ => ⟨S_, .i32⟩
  | .hbm, ⟨16, _⟩ => ⟨S16x16, .i32⟩
  | .hbm, ⟨17, _⟩ => ⟨S16x16, .i32⟩
  | .hbm, ⟨18, _⟩ => ⟨S16x16, .i32⟩
  | .hbm, ⟨19, _⟩ => ⟨S16x16x1, .i32⟩
  | .hbm, ⟨20, _⟩ => ⟨S16x16x8x8x8, .f32⟩
  | .hbm, ⟨21, _⟩ => ⟨S16x8x16x8x8, .f32⟩
  | .hbm, ⟨22, _⟩ => ⟨S128x128x8, .f32⟩
  | .hbm, ⟨23, _⟩ => ⟨S8x128x128, .f32⟩
  | .hbm, ⟨24, _⟩ => ⟨S1024x128x256, .f32⟩
  | .local _ .vmem, ⟨0, _⟩ => ⟨S32x128x768, .f32⟩
  | .local _ .vmem, ⟨1, _⟩ => ⟨S32x128x768, .f32⟩
  | .local _ .vmem, ⟨2, _⟩ => ⟨S8x128x128, .f32⟩
  | .local _ .vmem, ⟨3, _⟩ => ⟨S32x128x256, .f32⟩
  | .local _ .vmem, ⟨4, _⟩ => ⟨S32x128x256, .f32⟩
  | _, _ => ⟨S1024x128x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c32_i32 : BitVec 32 := 32#32
  let v2 : BitVec 32 := Scalar.addi c0_i32 c32_i32
  let c1_i32 : BitVec 32 := 1#32
  ⟨c0_i32, v2, c1_i32⟩
def k0_off1 (k0_t1 : Fin k0_t1_loop.trips) : Fin 3 → Nat :=
  let c0_i32_4 : BitVec 32 := 0#32
  let c0_i32 : BitVec 32 := 0#32
  let c1_i32 : BitVec 32 := 1#32
  let arg4 : BitVec 32 := Scf.iv c0_i32 c1_i32 k0_t1
  let c1_i32_3 : BitVec 32 := 1#32
  let v3 : BitVec 32 := Scalar.muli arg4 c1_i32_3
  let v4 : BitVec 32 := Scalar.addi c0_i32_4 v3
  let v5 : Index := Scalar.indexCast v4
  let c0_5 : Index := 0#32
  let c0_6 : Index := 0#32
  ![v5.toNat, 0, 0]
def k0_off2 (k0_t1 : Fin k0_t1_loop.trips) : Fin 3 → Nat :=
  let c0_i32_4 : BitVec 32 := 0#32
  let c0_i32 : BitVec 32 := 0#32
  let c1_i32 : BitVec 32 := 1#32
  let arg4 : BitVec 32 := Scf.iv c0_i32 c1_i32 k0_t1
  let c1_i32_3 : BitVec 32 := 1#32
  let v3 : BitVec 32 := Scalar.muli arg4 c1_i32_3
  let v4 : BitVec 32 := Scalar.addi c0_i32_4 v3
  let v209 : Index := Scalar.indexCast v4
  let c0_54 : Index := 0#32
  let c0_55 : Index := 0#32
  ![v209.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x128x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S16_S16x1_0 : S16.BroadcastsInDim S16x1 (![0] : Fin 1 → Fin S16x1.rank)
  bcast_S16_S1x16_1 : S16.BroadcastsInDim S1x16 (![1] : Fin 1 → Fin S1x16.rank)
  bcast_S16x1_S16x16_0_1 : S16x1.BroadcastsInDim S16x16 (![0, 1] : Fin 2 → Fin S16x16.rank)
  bcast_S1x16_S16x16_0_1 : S1x16.BroadcastsInDim S16x16 (![0, 1] : Fin 2 → Fin S16x16.rank)
  bcast_S_S16x16 : S_.BroadcastsInDim S16x16 (![] : Fin 0 → Fin S16x16.rank)
  bcast_S16x16_S16x16x1_0_1 : S16x16.BroadcastsInDim S16x16x1 (![0, 1] : Fin 2 → Fin S16x16x1.rank)
  transposes_S16x16x8x8x8_S16x8x16x8x8_0_2_1_3_4 : S16x16x8x8x8.Transposes [0, 2, 1, 3, 4] S16x8x16x8x8
  shapeCasts_S16x8x16x8x8_S128x128x8 : S16x8x16x8x8.ShapeCasts S128x128x8
  transposes_S128x128x8_S8x128x128_2_0_1 : S128x128x8.Transposes [2, 0, 1] S8x128x128
  inb_S8x128x128_S8x128x128_0_0_0 : ∀ a, (![0, 0, 0] : Fin 3 → Nat) a + S8x128x128.size a ≤ S8x128x128.size a
  h_S8x128x128 : 0 < S8x128x128.numel
  shapeCasts_S8x128x128_S8x128x128 : S8x128x128.ShapeCasts S8x128x128
  h_S1x128x768 : 0 < S1x128x768.numel
  shapeCasts_S1x128x768_S128x768 : S1x128x768.ShapeCasts S128x768
  slices_S128x768_o0_0_S128x32 : S128x768.Slices ![0, 0] S128x32
  bitsLt_bf16_f32 : FTy.bits .bf16 < FTy.bits .f32
  slices_S128x768_o0_256_S128x32 : S128x768.Slices ![0, 256] S128x32
  slices_S128x768_o0_512_S128x32 : S128x768.Slices ![0, 512] S128x32
  slices_S8x128x128_o0_0_0_S1x128x128 : S8x128x128.Slices ![0, 0, 0] S1x128x128
  shapeCasts_S1x128x128_S128x128 : S1x128x128.ShapeCasts S128x128
  reduces_S128x128_S128 : S128x128.Reduces [1] S128
  shapeCasts_S128_S128x1 : S128.ShapeCasts S128x1
  broadcasts_S128x1_S128x128 : S128x1.Broadcasts S128x128
  slices_S128x768_o0_32_S128x32 : S128x768.Slices ![0, 32] S128x32
  slices_S128x768_o0_288_S128x32 : S128x768.Slices ![0, 288] S128x32
  slices_S128x768_o0_544_S128x32 : S128x768.Slices ![0, 544] S128x32
  slices_S8x128x128_o1_0_0_S1x128x128 : S8x128x128.Slices ![1, 0, 0] S1x128x128
  slices_S128x768_o0_64_S128x32 : S128x768.Slices ![0, 64] S128x32
  slices_S128x768_o0_320_S128x32 : S128x768.Slices ![0, 320] S128x32
  slices_S128x768_o0_576_S128x32 : S128x768.Slices ![0, 576] S128x32
  slices_S8x128x128_o2_0_0_S1x128x128 : S8x128x128.Slices ![2, 0, 0] S1x128x128
  slices_S128x768_o0_96_S128x32 : S128x768.Slices ![0, 96] S128x32
  slices_S128x768_o0_352_S128x32 : S128x768.Slices ![0, 352] S128x32
  slices_S128x768_o0_608_S128x32 : S128x768.Slices ![0, 608] S128x32
  slices_S8x128x128_o3_0_0_S1x128x128 : S8x128x128.Slices ![3, 0, 0] S1x128x128
  slices_S128x768_o0_128_S128x32 : S128x768.Slices ![0, 128] S128x32
  slices_S128x768_o0_384_S128x32 : S128x768.Slices ![0, 384] S128x32
  slices_S128x768_o0_640_S128x32 : S128x768.Slices ![0, 640] S128x32
  slices_S8x128x128_o4_0_0_S1x128x128 : S8x128x128.Slices ![4, 0, 0] S1x128x128
  slices_S128x768_o0_160_S128x32 : S128x768.Slices ![0, 160] S128x32
  slices_S128x768_o0_416_S128x32 : S128x768.Slices ![0, 416] S128x32
  slices_S128x768_o0_672_S128x32 : S128x768.Slices ![0, 672] S128x32
  slices_S8x128x128_o5_0_0_S1x128x128 : S8x128x128.Slices ![5, 0, 0] S1x128x128
  slices_S128x768_o0_192_S128x32 : S128x768.Slices ![0, 192] S128x32
  slices_S128x768_o0_448_S128x32 : S128x768.Slices ![0, 448] S128x32
  slices_S128x768_o0_704_S128x32 : S128x768.Slices ![0, 704] S128x32
  slices_S8x128x128_o6_0_0_S1x128x128 : S8x128x128.Slices ![6, 0, 0] S1x128x128
  slices_S128x768_o0_224_S128x32 : S128x768.Slices ![0, 224] S128x32
  slices_S128x768_o0_480_S128x32 : S128x768.Slices ![0, 480] S128x32
  slices_S128x768_o0_736_S128x32 : S128x768.Slices ![0, 736] S128x32
  slices_S8x128x128_o7_0_0_S1x128x128 : S8x128x128.Slices ![7, 0, 0] S1x128x128
  concatenates_S128x32_S128x32_S128x32_S128x32_S128x32_S128x32_S128x32_S128x32_S128x256_d1 : Shape.Concatenates [S128x32, S128x32, S128x32, S128x32, S128x32, S128x32, S128x32, S128x32] S128x256 1
  h_S1x128x256 : 0 < S1x128x256.numel
  shapeCasts_S1x128x256_S128x256 : S1x128x256.ShapeCasts S128x256
  shapeCasts_S128x256_S1x128x256 : S128x256.ShapeCasts S1x128x256
  gather_S31x8x8x8_S16x16x1_S16x16x8x8x8_234_0_n_n_0_2_1888_wf : GatherDims.WF S31x8x8x8 S16x16x1 S16x16x8x8x8 [2, 3, 4] [0] [] [0] [] 2 ![1, 8, 8, 8]
  dot_S128x32_S128x32_S128x128_1_1_0_0_n_n_wf : DotDims.WF S128x32 S128x32 S128x128 [1] [1] [0] [0] [] []
  dot_S128x128_S128x32_S128x32_1_0_0_1_n_n_wf : DotDims.WF S128x128 S128x32 S128x32 [1] [0] [0] [1] [] []
  hrank0 : 0 < grid0.rank
  k0_t1_ok : k0_t1_loop.OK
  k0_off1_inb : ∀ k0_t1 : Fin k0_t1_loop.trips, ∀ a, (k0_off1 k0_t1) a + S1x128x768.size a ≤ S32x128x768.size a
  k0_off2_inb : ∀ k0_t1 : Fin k0_t1_loop.trips, ∀ a, (k0_off2 k0_t1) a + S1x128x256.size a ≤ S32x128x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128x768.size a ≤ S1024x128x768.size a
  hwx0_0 : ∀ i : grid0.Coords, EltTy.bits .f32 = 32 ∨ (Rect.block (s := S1024x128x768) S32x128x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x128x128.size a ≤ S8x128x128.size a
  hwx0_1 : ∀ i : grid0.Coords, EltTy.bits .f32 = 32 ∨ (Rect.block (s := S8x128x128) S8x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x128x256.size a ≤ S1024x128x256.size a
  hwx0_2 : ∀ i : grid0.Coords, EltTy.bits .f32 = 32 ∨ (Rect.block (s := S1024x128x256) S32x128x256.size (cc0_transform_2 i) (hinb0_2 i)).WholeWords (EltTy.packing .f32)

variable [Facts₀]

def gather_S31x8x8x8_S16x16x1_S16x16x8x8x8_234_0_n_n_0_2_1888 : GatherDims S31x8x8x8 S16x16x1 S16x16x8x8x8 where
  offsetDims := [2, 3, 4]
  collapsedSliceDims := [0]
  operandBatchingDims := []
  startIndicesBatchingDims := []
  startIndexMap := [0]
  indexVectorDim := 2
  sliceSizes := ![1, 8, 8, 8]
  wf := gather_S31x8x8x8_S16x16x1_S16x16x8x8x8_234_0_n_n_0_2_1888_wf
def dot_S128x32_S128x32_S128x128_1_1_0_0_n_n : DotDims S128x32 S128x32 S128x128 where
  lhsContracting := [1]
  rhsContracting := [1]
  lhsNonContracting := [0]
  rhsNonContracting := [0]
  lhsBatch := []
  rhsBatch := []
  wf := dot_S128x32_S128x32_S128x128_1_1_0_0_n_n_wf
def dot_S128x128_S128x32_S128x32_1_0_0_1_n_n : DotDims S128x128 S128x32 S128x32 where
  lhsContracting := [1]
  rhsContracting := [0]
  lhsNonContracting := [0]
  rhsNonContracting := [1]
  lhsBatch := []
  rhsBatch := []
  wf := dot_S128x128_S128x32_S128x32_1_0_0_1_n_n_wf

abbrev win0_0 : Pipeline.Window sig grid0 :=
  Pipeline.Window.ofSpec (Memref.whole main_arg0) S32x128x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S8x128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S32x128x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x128x768 : Shape := ⟨3, ![1024, 128, 768]⟩
abbrev S31x8x8x8 : Shape := ⟨4, ![31, 8, 8, 8]⟩
abbrev S1024x128x3x8x32 : Shape := ⟨5, ![1024, 128, 3, 8, 32]⟩
abbrev S3x1024x8x128x32 : Shape := ⟨5, ![3, 1024, 8, 128, 32]⟩
abbrev S1x1024x8x128x32 : Shape := ⟨5, ![1, 1024, 8, 128, 32]⟩
abbrev S1024x8x128x32 : Shape := ⟨4, ![1024, 8, 128, 32]⟩
abbrev S1024x8x128x128 : Shape := ⟨4, ![1024, 8, 128, 128]⟩
abbrev S_ : Shape := ⟨0, ![]⟩
abbrev S16 : Shape := ⟨1, ![16]⟩
abbrev S16x1 : Shape := ⟨2, ![16, 1]⟩
abbrev S1x16 : Shape := ⟨2, ![1, 16]⟩
abbrev S16x16 : Shape := ⟨2, ![16, 16]⟩
abbrev S16x16x1 : Shape := ⟨3, ![16, 16, 1]⟩
abbrev S16x16x8x8x8 : Shape := ⟨5, ![16, 16, 8, 8, 8]⟩
abbrev S16x8x16x8x8 : Shape := ⟨5, ![16, 8, 16, 8, 8]⟩
abbrev S128x128x8 : Shape := ⟨3, ![128, 128, 8]⟩
abbrev S8x128x128 : Shape := ⟨3, ![8, 128, 128]⟩
abbrev S1x8x128x128 : Shape := ⟨4, ![1, 8, 128, 128]⟩
abbrev S1024x8x128 : Shape := ⟨3, ![1024, 8, 128]⟩
abbrev S1024x8x128x1 : Shape := ⟨4, ![1024, 8, 128, 1]⟩
abbrev S1024x128x8x32 : Shape := ⟨4, ![1024, 128, 8, 32]⟩
abbrev S1024x128x256 : Shape := ⟨3, ![1024, 128, 256]⟩

abbrev nBuf : Space → Nat
  | .hbm => 56
  | .vmem => 0
  | .smem => 0
  | _ => 0

abbrev bufTy : (tb : Table) → Fin (tcTables nBuf tb) → BufTy
  | .hbm, ⟨0, _⟩ => ⟨S1024x128x768, .f32⟩
  | .hbm, ⟨1, _⟩ => ⟨S31x8x8x8, .f32⟩
  | .hbm, ⟨2, _⟩ => ⟨S1024x128x3x8x32, .f32⟩
  | .hbm, ⟨3, _⟩ => ⟨S3x1024x8x128x32, .f32⟩
  | .hbm, ⟨4, _⟩ => ⟨S1x1024x8x128x32, .f32⟩
  | .hbm, ⟨5, _⟩ => ⟨S1024x8x128x32, .f32⟩
  | .hbm, ⟨6, _⟩ => ⟨S1x1024x8x128x32, .f32⟩
  | .hbm, ⟨7, _⟩ => ⟨S1024x8x128x32, .f32⟩
  | .hbm, ⟨8, _⟩ => ⟨S1x1024x8x128x32, .f32⟩
  | .hbm, ⟨9, _⟩ => ⟨S1024x8x128x32, .f32⟩
  | .hbm, ⟨10, _⟩ => ⟨S1024x8x128x128, .f32⟩
  | .hbm, ⟨11, _⟩ => ⟨S_, .f32⟩
  | .hbm, ⟨12, _⟩ => ⟨S1024x8x128x128, .f32⟩
  | .hbm, ⟨13, _⟩ => ⟨S1024x8x128x128, .f32⟩
  | .hbm, ⟨14, _⟩ => ⟨S16, .i32⟩
  | .hbm, ⟨15, _⟩ => ⟨S16x1, .i32⟩
  | .hbm, ⟨16, _⟩ => ⟨S16, .i32⟩
  | .hbm, ⟨17, _⟩ => ⟨S1x16, .i32⟩
  | .hbm, ⟨18, _⟩ => ⟨S16x16, .i32⟩
  | .hbm, ⟨19, _⟩ => ⟨S16x16, .i32⟩
  | .hbm, ⟨20, _⟩ => ⟨S16x16, .i32⟩
  | .hbm, ⟨21, _⟩ => ⟨S_, .i32⟩
  | .hbm, ⟨22, _⟩ => ⟨S16x16, .i32⟩
  | .hbm, ⟨23, _⟩ => ⟨S16x16, .i32⟩
  | .hbm, ⟨24, _⟩ => ⟨S_, .i32⟩
  | .hbm, ⟨25, _⟩ => ⟨S16x16, .i32⟩
  | .hbm, ⟨26, _⟩ => ⟨S16x16, .i1⟩
  | .hbm, ⟨27, _⟩ => ⟨S_, .i32⟩
  | .hbm, ⟨28, _⟩ => ⟨S16x16, .i32⟩
  | .hbm, ⟨29, _⟩ => ⟨S16x16, .i32⟩
  | .hbm, ⟨30, _⟩ => ⟨S16x16, .i32⟩
  | .hbm, ⟨31, _⟩ => ⟨S16x16x1, .i32⟩
  | .hbm, ⟨32, _⟩ => ⟨S16x16x8x8x8, .f32⟩
  | .hbm, ⟨33, _⟩ => ⟨S16x8x16x8x8, .f32⟩
  | .hbm, ⟨34, _⟩ => ⟨S128x128x8, .f32⟩
  | .hbm, ⟨35, _⟩ => ⟨S8x128x128, .f32⟩
  | .hbm, ⟨36, _⟩ => ⟨S1x8x128x128, .f32⟩
  | .hbm, ⟨37, _⟩ => ⟨S1024x8x128x128, .f32⟩
  | .hbm, ⟨38, _⟩ => ⟨S1024x8x128x128, .f32⟩
  | .hbm, ⟨39, _⟩ => ⟨S_, .f32⟩
  | .hbm, ⟨40, _⟩ => ⟨S1024x8x128, .f32⟩
  | .hbm, ⟨41, _⟩ => ⟨S_, .f32⟩
  | .hbm, ⟨42, _⟩ => ⟨S1024x8x128, .f32⟩
  | .hbm, ⟨43, _⟩ => ⟨S1024x8x128, .f32⟩
  | .hbm, ⟨44, _⟩ => ⟨S1024x8x128x1, .f32⟩
  | .hbm, ⟨45, _⟩ => ⟨S1024x8x128x128, .f32⟩
  | .hbm, ⟨46, _⟩ => ⟨S1024x8x128x128, .f32⟩
  | .hbm, ⟨47, _⟩ => ⟨S1024x8x128x128, .f32⟩
  | .hbm, ⟨48, _⟩ => ⟨S_, .f32⟩
  | .hbm, ⟨49, _⟩ => ⟨S1024x8x128, .f32⟩
  | .hbm, ⟨50, _⟩ => ⟨S1024x8x128x1, .f32⟩
  | .hbm, ⟨51, _⟩ => ⟨S1024x8x128x128, .f32⟩
  | .hbm, ⟨52, _⟩ => ⟨S1024x8x128x128, .f32⟩
  | .hbm, ⟨53, _⟩ => ⟨S1024x8x128x32, .f32⟩
  | .hbm, ⟨54, _⟩ => ⟨S1024x128x8x32, .f32⟩
  | .hbm, ⟨55, _⟩ => ⟨S1024x128x256, .f32⟩
  | _, _ => ⟨S1024x128x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_c : Ref sig .tc := ⟨.hbm, 21, rfl⟩
abbrev main_v18 : Ref sig .tc := ⟨.hbm, 22, rfl⟩
abbrev main_v19 : Ref sig .tc := ⟨.hbm, 23, rfl⟩
abbrev main_c_0 : Ref sig .tc := ⟨.hbm, 24, rfl⟩
abbrev main_v20 : Ref sig .tc := ⟨.hbm, 25, rfl⟩
abbrev main_v21 : Ref sig .tc := ⟨.hbm, 26, rfl⟩
abbrev main_c_1 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst_2 : Ref sig .tc := ⟨.hbm, 39, rfl⟩
abbrev main_v33 : Ref sig .tc := ⟨.hbm, 40, rfl⟩
abbrev main_cst_3 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_4 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩

abbrev nD : Nat := 1
abbrev τ : Topo := Topo.v7x

variable {F : FTy → Type} [FloatOps F]

class Facts₀ : Prop where
  shapeCasts_S1024x128x768_S1024x128x3x8x32 : S1024x128x768.ShapeCasts S1024x128x3x8x32
  transposes_S1024x128x3x8x32_S3x1024x8x128x32_2_0_3_1_4 : S1024x128x3x8x32.Transposes [2, 0, 3, 1, 4] S3x1024x8x128x32
  slices_S3x1024x8x128x32_S1x1024x8x128x32_0_0_0_0_0 : S3x1024x8x128x32.Slices ![0, 0, 0, 0, 0] S1x1024x8x128x32
  shapeCasts_S1x1024x8x128x32_S1024x8x128x32 : S1x1024x8x128x32.ShapeCasts S1024x8x128x32
  slices_S3x1024x8x128x32_S1x1024x8x128x32_1_0_0_0_0 : S3x1024x8x128x32.Slices ![1, 0, 0, 0, 0] S1x1024x8x128x32
  slices_S3x1024x8x128x32_S1x1024x8x128x32_2_0_0_0_0 : S3x1024x8x128x32.Slices ![2, 0, 0, 0, 0] S1x1024x8x128x32
  bcast_S_S1024x8x128x128 : S_.BroadcastsInDim S1024x8x128x128 (![] : Fin 0 → Fin S1024x8x128x128.rank)
  bcast_S16_S16x1_0 : S16.BroadcastsInDim S16x1 (![0] : Fin 1 → Fin S16x1.rank)
  bcast_S16_S1x16_1 : S16.BroadcastsInDim S1x16 (![1] : Fin 1 → Fin S1x16.rank)
  bcast_S16x1_S16x16_0_1 : S16x1.BroadcastsInDim S16x16 (![0, 1] : Fin 2 → Fin S16x16.rank)
  bcast_S1x16_S16x16_0_1 : S1x16.BroadcastsInDim S16x16 (![0, 1] : Fin 2 → Fin S16x16.rank)
  bcast_S_S16x16 : S_.BroadcastsInDim S16x16 (![] : Fin 0 → Fin S16x16.rank)
  bcast_S16x16_S16x16x1_0_1 : S16x16.BroadcastsInDim S16x16x1 (![0, 1] : Fin 2 → Fin S16x16x1.rank)
  transposes_S16x16x8x8x8_S16x8x16x8x8_0_2_1_3_4 : S16x16x8x8x8.Transposes [0, 2, 1, 3, 4] S16x8x16x8x8
  shapeCasts_S16x8x16x8x8_S128x128x8 : S16x8x16x8x8.ShapeCasts S128x128x8
  transposes_S128x128x8_S8x128x128_2_0_1 : S128x128x8.Transposes [2, 0, 1] S8x128x128
  bcast_S8x128x128_S1x8x128x128_1_2_3 : S8x128x128.BroadcastsInDim S1x8x128x128 (![1, 2, 3] : Fin 3 → Fin S1x8x128x128.rank)
  bcast_S1x8x128x128_S1024x8x128x128_0_1_2_3 : S1x8x128x128.BroadcastsInDim S1024x8x128x128 (![0, 1, 2, 3] : Fin 4 → Fin S1024x8x128x128.rank)
  reducesTo_S1024x8x128x128_S1024x8x128_d3 : S1024x8x128x128.ReducesTo [3] S1024x8x128
  h_S_ : 0 < S_.numel
  bcast_S_S1024x8x128 : S_.BroadcastsInDim S1024x8x128 (![] : Fin 0 → Fin S1024x8x128.rank)
  bcast_S1024x8x128_S1024x8x128x1_0_1_2 : S1024x8x128.BroadcastsInDim S1024x8x128x1 (![0, 1, 2] : Fin 3 → Fin S1024x8x128x1.rank)
  bcast_S1024x8x128x1_S1024x8x128x128_0_1_2_3 : S1024x8x128x1.BroadcastsInDim S1024x8x128x128 (![0, 1, 2, 3] : Fin 4 → Fin S1024x8x128x128.rank)
  transposes_S1024x8x128x32_S1024x128x8x32_0_2_1_3 : S1024x8x128x32.Transposes [0, 2, 1, 3] S1024x128x8x32
  shapeCasts_S1024x128x8x32_S1024x128x256 : S1024x128x8x32.ShapeCasts S1024x128x256
  dot_S1024x8x128x32_S1024x8x128x32_S1024x8x128x128_3_3_2_2_01_01_wf : DotDims.WF S1024x8x128x32 S1024x8x128x32 S1024x8x128x128 [3] [3] [2] [2] [0, 1] [0, 1]
  gather_S31x8x8x8_S16x16x1_S16x16x8x8x8_234_0_n_n_0_2_1888_wf : GatherDims.WF S31x8x8x8 S16x16x1 S16x16x8x8x8 [2, 3, 4] [0] [] [0] [] 2 ![1, 8, 8, 8]
  dot_S1024x8x128x128_S1024x8x128x32_S1024x8x128x32_3_2_2_3_01_01_wf : DotDims.WF S1024x8x128x128 S1024x8x128x32 S1024x8x128x32 [3] [2] [2] [3] [0, 1] [0, 1]

variable [Facts₀]

def dot_S1024x8x128x32_S1024x8x128x32_S1024x8x128x128_3_3_2_2_01_01 : DotDims S1024x8x128x32 S1024x8x128x32 S1024x8x128x128 where
  lhsContracting := [3]
  rhsContracting := [3]
  lhsNonContracting := [2]
  rhsNonContracting := [2]
  lhsBatch := [0, 1]
  rhsBatch := [0, 1]
  wf := dot_S1024x8x128x32_S1024x8x128x32_S1024x8x128x128_3_3_2_2_01_01_wf
def gather_S31x8x8x8_S16x16x1_S16x16x8x8x8_234_0_n_n_0_2_1888 : GatherDims S31x8x8x8 S16x16x1 S16x16x8x8x8 where
  offsetDims := [2, 3, 4]
  collapsedSliceDims := [0]
  operandBatchingDims := []
  startIndicesBatchingDims := []
  startIndexMap := [0]
  indexVectorDim := 2
  sliceSizes := ![1, 8, 8, 8]
  wf := gather_S31x8x8x8_S16x16x1_S16x16x8x8x8_234_0_n_n_0_2_1888_wf
def dot_S1024x8x128x128_S1024x8x128x32_S1024x8x128x32_3_2_2_3_01_01 : DotDims S1024x8x128x128 S1024x8x128x32 S1024x8x128x32 where
  lhsContracting := [3]
  rhsContracting := [2]
  lhsNonContracting := [2]
  rhsNonContracting := [3]
  lhsBatch := [0, 1]
  rhsBatch := [0, 1]
  wf := dot_S1024x8x128x128_S1024x8x128x32_S1024x8x128x32_3_2_2_3_01_01_wf

class Facts : Prop extends Facts₀ where

variable [Facts]
-- ==== Proof.Spec.lean ====
/-
  Multi-head attention with an additive bias, as one function of its two arrays, on the extended reals.

  The input `x` has shape [1024, 128, 768]: for batch entry `b` and position `s`, the 768 columns hold, for each of the
  eight heads `h` and each of the 32 lanes `d`, a query entry at column `32 h + d`, a key entry at column
  `256 + 32 h + d` and a value entry at column `512 + 32 h + d`. The bias `B` has shape [8, 128, 128]: one 128 x 128
  table per head, shared by every batch entry.

  For batch entry `b`, head `h` and positions `s`, `t`:
    logit  = (sum over d of query(b, s, h, d) * key(b, t, h, d)) * scale + B(h, s, t)
    rowMax = the larger of minus infinity and the maximum over t of logit (folded from minus infinity)
    expo   = exp (logit - rowMax)
    rowSum = sum over t of expo
    weight = expo / rowSum
    out(b, s, 32 h + d) = sum over t of weight(b, h, s, t) * value(b, t, h, d)
  The scale and minus infinity are kept as the binary words both programs carry; neither is ever evaluated.
-/
import Idealize.ShloMosaic.PureOps.Ideal
import Idealize.ShloMosaic.Lib.ValueIdx

noncomputable section

open scoped BigOperators

namespace Cert.Attn

open Idealize.ShloMosaic Idealize.ShloMosaic.ValueIdx

/-- The shape of the input array: batch, position, column. -/
abbrev XS : Shape := ⟨3, ![1024, 128, 768]⟩
/-- The shape of the bias array: head, row position, column position. -/
abbrev BS : Shape := ⟨3, ![8, 128, 128]⟩
/-- The shape of the result: batch, position, column (eight heads of 32 lanes). -/
abbrev OS : Shape := ⟨3, ![1024, 128, 256]⟩

/-- The factor the logits are multiplied by, as the binary word both programs carry. -/
def scale : EReal := Ideal.ofBits .f32 0x3EB504F3#32
/-- The value the row maximum starts from, as the binary word both programs carry (minus infinity). -/
def negInf : EReal := Ideal.ofBits .f32 0xFF800000#32

/-- The column of head `h`'s query lane `d`. -/
def qcol (h : Fin 8) (d : Fin 32) : Fin 768 := ⟨h.val * 32 + d.val, by have := h.isLt; have := d.isLt; omega⟩
/-- The column of head `h`'s key lane `d`. -/
def kcol (h : Fin 8) (d : Fin 32) : Fin 768 := ⟨256 + (h.val * 32 + d.val), by have := h.isLt; have := d.isLt; omega⟩
/-- The column of head `h`'s value lane `d`. -/
def vcol (h : Fin 8) (d : Fin 32) : Fin 768 := ⟨512 + (h.val * 32 + d.val), by have := h.isLt; have := d.isLt; omega⟩

/-- The head an output column belongs to. -/
def colHead (c : Fin 256) : Fin 8 := ⟨c.val / 32, by have := c.isLt; omega⟩
/-- The lane of an output column within its head. -/
def colLane (c : Fin 256) : Fin 32 := ⟨c.val % 32, by omega⟩

variable (x : XS.Idx → EReal) (B : BS.Idx → EReal)

/-- The scaled dot product of query row `s` with key row `t` of head `h`, plus the bias. -/
def logit (b : Fin 1024) (h : Fin 8) (s t : Fin 128) : EReal :=
  (∑ d : Fin 32, x (ix3 b s (qcol h d)) * x (ix3 b t (kcol h d))) * scale + B (ix3 h s t)

/-- The largest logit of row `s`, the maximum started from minus infinity and compared with it once more. -/
def rowMax (b : Fin 1024) (h : Fin 8) (s : Fin 128) : EReal :=
  max negInf ((Finset.univ : Finset (Fin 128)).fold max negInf (fun t => logit x B b h s t))

/-- The exponential of a logit less its row's maximum. -/
def expo (b : Fin 1024) (h : Fin 8) (s t : Fin 128) : EReal :=
  Ideal.exp (logit x B b h s t - rowMax x B b h s)

/-- The sum of a row's exponentials. -/
def rowSum (b : Fin 1024) (h : Fin 8) (s : Fin 128) : EReal := ∑ t : Fin 128, expo x B b h s t

/-- The softmax weight of position `t` in row `s`. -/
def weight (b : Fin 1024) (h : Fin 8) (s t : Fin 128) : EReal :=
  Ideal.div (expo x B b h s t) (rowSum x B b h s)

/-- Head `h`'s output at position `s`, lane `d`: the weighted sum of the value rows. -/
def headOut (b : Fin 1024) (h : Fin 8) (s : Fin 128) (d : Fin 32) : EReal :=
  ∑ t : Fin 128, weight x B b h s t * x (ix3 b t (vcol h d))

/-- The whole result, index by index. -/
def attn (i : OS.Idx) : EReal :=
  headOut x B ⟨(i 0).val, (i 0).isLt⟩ (colHead ⟨(i 2).val, (i 2).isLt⟩) ⟨(i 1).val, (i 1).isLt⟩
    (colLane ⟨(i 2).val, (i 2).isLt⟩)

/-- The result at batch entry `b`, position `s`, column `c`. -/
theorem attn_ix3 (b : Fin 1024) (s : Fin 128) (c : Fin 256) :
    attn x B (ix3 b s c) = headOut x B b (colHead c) s (colLane c) := rfl

end Cert.Attn

end
-- ==== Proof.HeadSpec.lean ====
/-
  One attention head over plain row functions.

  For a 128 x 32 query table `q`, key table `k`, value table `v` and a 128 x 128 bias table `bb`:
    hLogit s t = (sum over d of q s d * k t d) * scale + bb s t
    hMax s     = the larger of minus infinity and the maximum over t of hLogit s t
    hExp s t   = exp (hLogit s t - hMax s)
    hOut s d   = sum over t of (hExp s t / sum over t' of hExp s t') * v t d.
  The specification's head output is this function of the head's three column ranges of one batch entry and of the
  head's bias table: the two definitions unfold to the same expression.
-/
import proofs.«120545_j67473936221011_1_alg».proof.Proof.Spec

noncomputable section

open scoped BigOperators

namespace Cert.Attn

open Idealize.ShloMosaic Idealize.ShloMosaic.ValueIdx

section Head

variable (q k v : Fin 128 → Fin 32 → EReal) (bb : Fin 128 → Fin 128 → EReal)

/-- The scaled dot product of query row `s` and key row `t`, plus the bias entry. -/
def hLogit (s t : Fin 128) : EReal := (∑ d : Fin 32, q s d * k t d) * scale + bb s t

/-- Row `s`'s largest logit, the maximum started from minus infinity and compared with it once more. -/
def hMax (s : Fin 128) : EReal :=
  max negInf ((Finset.univ : Finset (Fin 128)).fold max negInf (fun t => hLogit q k bb s t))

/-- The exponential of a logit less its row's maximum. -/
def hExp (s t : Fin 128) : EReal := Ideal.exp (hLogit q k bb s t - hMax q k bb s)

/-- The sum of row `s`'s exponentials. -/
def hSum (s : Fin 128) : EReal := ∑ t : Fin 128, hExp q k bb s t

/-- The softmax weight of position `t` in row `s`. -/
def hWeight (s t : Fin 128) : EReal := Ideal.div (hExp q k bb s t) (hSum q k bb s)

/-- The head's output at row `s`, lane `d`. -/
def hOut (s : Fin 128) (d : Fin 32) : EReal := ∑ t : Fin 128, hWeight q k bb s t * v t d

end Head

/-- The specification's head output is `hOut` of the head's query, key and value columns of batch entry `b` and of the
    head's bias table. -/
theorem headOut_eq (x : XS.Idx → EReal) (B : BS.Idx → EReal) (b : Fin 1024) (h : Fin 8) (s : Fin 128) (d : Fin 32) :
    headOut x B b h s d
      = hOut (fun s d => x (ix3 b s (qcol h d))) (fun t d => x (ix3 b t (kcol h d))) (fun t d => x (ix3 b t (vcol h d)))
          (fun s t => B (ix3 h s t)) s d := rfl

end Cert.Attn

end
-- ==== Proof.LibDotTransposed.lean ====
/-
  A matrix product against a transposed right operand, read at an index, on the extended reals.

  For dimension numbers that contract the second axis of BOTH operands — an [M, K] array against a [P, K] array, the
  product of the first with the transpose of the second — the product into a zero accumulator, read at row `p` and
  column `q`, is `Σ k, l (p, k) · r (q, k)`: the dot product of row `p` of the left operand with row `q` of the right
  one. The contraction's index set has one axis; the sum is re-indexed through that axis's coordinate. The two facts
  about the free axes (the left index keeps the row, the right index keeps the output's column as its row) are taken as
  hypotheses, since for given dimension numbers they hold by computation.
-/
import Idealize.ShloMosaic.PureOps.Ideal.Laws
import Idealize.ShloMosaic.Lib.ValueIdx

noncomputable section

open scoped BigOperators

namespace Cert.LibDotTransposed

open Idealize.ShloMosaic Idealize.ShloMosaic.ValueIdx

/-- The product with the transposed right operand, into the zero accumulator, at (p, q): the sum over the contraction
    coordinate of the left operand at (p, k) times the right operand at (q, k). -/
theorem matmul_zero_apply {M K P : ℕ} {φ₁ φ₂ : FTy}
    (D : DotDims ⟨2, ![M, K]⟩ ⟨2, ![P, K]⟩ ⟨2, ![M, P]⟩)
    (hlc : D.lhsContracting = [1]) (hrc : D.rhsContracting = [1])
    (hl0 : ∀ (j : (⟨2, ![M, P]⟩ : Shape).Idx) (c : D.contr.Idx), (D.lhsIdx j c 0).val = (j 0).val)
    (hr0 : ∀ (j : (⟨2, ![M, P]⟩ : Shape).Idx) (c : D.contr.Idx), (D.rhsIdx j c 0).val = (j 1).val)
    (hrank : D.contr.rank = 1) (hsize : D.contr.size ⟨0, by omega⟩ = K)
    (prec : Option ContractPrecision)
    (l : FVec Ideal ⟨2, ![M, K]⟩ φ₁) (r : FVec Ideal ⟨2, ![P, K]⟩ φ₂) (p : Fin M) (q : Fin P) :
    FloatOps.matmul D prec l r (constant ⟨2, ![M, P]⟩ .f32 0x00000000#32) (ix2 p q)
      = ∑ k : Fin K, l (ix2 p k) * r (ix2 q k) := by
  rw [Ideal.matmul_constant_zero_apply, ← Equiv.sum_comp (contrEquiv1 D K hrank hsize).symm]
  refine Finset.sum_congr rfl fun k _ => ?_
  have hk := contrEquiv1_symm_val D K hrank hsize k
  have el : D.lhsIdx (ix2 p q) ((contrEquiv1 D K hrank hsize).symm k) = ix2 p k := funext fun a => Fin.ext (by
    match a with
    | ⟨0, _⟩ => exact hl0 _ _
    | ⟨1, _⟩ => exact (D.lhsIdx_val_of_single hlc _ _).trans hk)
  have er : D.rhsIdx (ix2 p q) ((contrEquiv1 D K hrank hsize).symm k) = ix2 q k := funext fun a => Fin.ext (by
    match a with
    | ⟨0, _⟩ => exact hr0 _ _
    | ⟨1, _⟩ => exact (D.rhsIdx_val_of_single hrc _ _).trans hk)
  rw [el, er]

end Cert.LibDotTransposed

end
-- ==== Proof.LibPlainDot.lean ====
/-
  A plain matrix product read at an index, on the extended reals.

  For dimension numbers that contract the left operand's second axis against the right operand's first — an
  [M, K] array times a [K, P] array — the product into a zero accumulator, read at row `p` and column `q`, is
  `Σ k, l (p, k) · r (k, q)` over the K contraction coordinates. The contraction's index set has one axis; the sum is
  re-indexed through that axis's coordinate. The two facts about the free axes (the left index keeps the row, the right
  index keeps the column) are taken as hypotheses, since for given dimension numbers they hold by computation.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- The matrix product into the zero accumulator at (p, q) is the sum over the contraction coordinate of the left
    operand at (p, k) times the right operand at (k, q). -/
theorem matmul_zero_apply {M K P : ℕ} {φ₁ φ₂ : FTy}
    (D : DotDims ⟨2, ![M, K]⟩ ⟨2, ![K, P]⟩ ⟨2, ![M, P]⟩)
    (hlc : D.lhsContracting = [1]) (hrc : D.rhsContracting = [0])
    (hl0 : ∀ (j : (⟨2, ![M, P]⟩ : Shape).Idx) (c : D.contr.Idx), (D.lhsIdx j c 0).val = (j 0).val)
    (hr1 : ∀ (j : (⟨2, ![M, P]⟩ : Shape).Idx) (c : D.contr.Idx), (D.rhsIdx j c 1).val = (j 1).val)
    (hrank : D.contr.rank = 1) (hsize : D.contr.size ⟨0, by omega⟩ = K)
    (prec : Option ContractPrecision)
    (l : FVec Ideal ⟨2, ![M, K]⟩ φ₁) (r : FVec Ideal ⟨2, ![K, P]⟩ φ₂) (p : Fin M) (q : Fin P) :
    FloatOps.matmul D prec l r (constant ⟨2, ![M, P]⟩ .f32 0x00000000#32) (ix2 p q)
      = ∑ k : Fin K, l (ix2 p k) * r (ix2 k q) := by
  rw [Ideal.matmul_constant_zero_apply, ← Equiv.sum_comp (contrEquiv1 D K hrank hsize).symm]
  refine Finset.sum_congr rfl fun k _ => ?_
  have hk := contrEquiv1_symm_val D K hrank hsize k
  have el : D.lhsIdx (ix2 p q) ((contrEquiv1 D K hrank hsize).symm k) = ix2 p k := funext fun a => Fin.ext (by
    match a with
    | ⟨0, _⟩ => exact hl0 _ _
    | ⟨1, _⟩ => exact (D.lhsIdx_val_of_single hlc _ _).trans hk)
  have er : D.rhsIdx (ix2 p q) ((contrEquiv1 D K hrank hsize).symm k) = ix2 k q := funext fun a => Fin.ext (by
    match a with
    | ⟨0, _⟩ => exact (D.rhsIdx_val_of_single hrc _ _).trans hk
    | ⟨1, _⟩ => exact hr1 _ _)
  rw [el, er]

end Cert.LibPlainDot

end
-- ==== Proof.LibColumn.lean ====
/-
  A column of per-row values used against a matrix.

  A vector of length `a` written as an `[a, 1]` column (a reshape that appends a unit axis) holds, at row `i`, the
  vector's entry `i`; and an `[a, 1]` column broadcast along the second axis to `[a, b]` holds, at `(p, c)`, the
  column's entry of row `p`, whatever the column coordinate `c`. Both are read off the general index lemmas for a
  shape cast (equal row-major positions) and for a broadcast (unit axes read at 0).
-/
import Idealize.ShloMosaic.Lib.Pipeline.Value
import Idealize.ShloMosaic.Lib.ValueIdx

noncomputable section

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn

end
-- ==== Proof.HeadFn.lean ====
/-
  One attention head as the vector unit computes it, read at an index on the extended reals.

  `headFn q k v bias` is the head's chain of operations on 128 x 32 tables `q`, `k`, `v` and a 128 x 128 table `bias`:
  the product of `q` with the transpose of `k` into a zero accumulator, times the scale, plus the bias (`logits`); each
  row's maximum from minus infinity, compared once more with minus infinity (`rowMaxV`); the exponential of each logit
  less its row's maximum (`expoV`); each row's sum of these from zero (`rowSumV`); their quotient (`weightV`); and the
  product of the weights with `v` into a zero accumulator. Changes of float format are the identity on the extended
  reals. Read at row `s` and lane `d` this is `hOut` of the four tables' entries.
-/
import proofs.«120545_j67473936221011_1_alg».proof.Proof.Gen.KernelIdeal
import proofs.«120545_j67473936221011_1_alg».proof.Proof.HeadSpec
import proofs.«120545_j67473936221011_1_alg».proof.Proof.LibDotTransposed
import proofs.«120545_j67473936221011_1_alg».proof.Proof.LibPlainDot
import proofs.«120545_j67473936221011_1_alg».proof.Proof.LibColumn
import Idealize.ShloMosaic.PureOps.Ideal.Laws
import Idealize.ShloMosaic.Lib.ValueIdx
import Idealize.ShloMosaic.Lib.Pipeline.Value

noncomputable section

open scoped BigOperators

namespace Cert.AttnK

open Idealize.ShloMosaic Idealize.ShloMosaic.ValueIdx Cert.KernelIdeal Cert.KernelIdeal.Facts₀ Cert.Attn

section AnyInstance

variable {F : FTy → Type} [FloatOps F]

/-- The scaled products of query rows with key rows, plus the bias. -/
def logits (q k : FVec F S128x32 .bf16) (bias : FVec F S128x128 .f32) : FVec F S128x128 .f32 :=
  addf (mulf (matmul dot_S128x32_S128x32_S128x128_1_1_0_0_n_n none q k (constant S128x128 .f32 0x00000000#32))
    (broadcast S128x128 (Scalar.ofBits .f32 0x3EB504F3#32))) bias

/-- Each row's maximum. -/
def rowMaxV (L : FVec F S128x128 .f32) : FVec F S128 .f32 :=
  maximumf (broadcast S128 (Scalar.ofBits .f32 0xFF800000#32))
    (multiReduction .maximumf [1] S128 L 0xFF800000#32 reduces_S128x128_S128 (.inl rfl) rfl)

/-- The exponentials of the logits less their row's maximum `M`. -/
def expoV (L : FVec F S128x128 .f32) (M : FVec F S128 .f32) : FVec F S128x128 .f32 :=
  exp (subf L (broadcastTo S128x128 (shapeCast S128x1 M shapeCasts_S128_S128x1) broadcasts_S128x1_S128x128))

/-- The weights: each exponential over its row's sum, and the product with the value table. -/
def weighted (E : FVec F S128x128 .f32) (v : FVec F S128x32 .bf16) : FVec F S128x32 .f32 :=
  matmul dot_S128x128_S128x32_S128x32_1_0_0_1_n_n none
    (truncf .bf16
      (divf E (broadcastTo S128x128
        (shapeCast S128x1 (multiReduction .add [1] S128 E 0x00000000#32 reduces_S128x128_S128 (.inl rfl) rfl)
          shapeCasts_S128_S128x1) broadcasts_S128x1_S128x128)) bitsLt_bf16_f32)
    v (constant S128x32 .f32 0x00000000#32)

/-- One head. -/
def headFn (q k v : FVec F S128x32 .bf16) (bias : FVec F S128x128 .f32) : FVec F S128x32 .f32 :=
  weighted (expoV (logits q k bias) (rowMaxV (logits q k bias))) v

end AnyInstance

/-! ## Read at an index -/

/-- The index of row `s` with the reduced coordinate `t` put back on the second axis is (s, t). -/
theorem lift_row (h : S128x128.Reduces [1] S128) (s : Fin 128) (t : Fin (S128x128.size 1)) :
    h.lift (ix1 s) t = ix2 s (⟨t.val, t.isLt⟩ : Fin 128) := by
  funext c; apply Fin.ext
  match c with
  | ⟨0, _⟩ => rfl
  | ⟨1, _⟩ => rfl

/-- The product of `q` with the transpose of `k` keeps the output's row as the left index's row and the output's column
    as the right index's row. -/
theorem qk_l0 (j : S128x128.Idx) (c : dot_S128x32_S128x32_S128x128_1_1_0_0_n_n.contr.Idx) :
    (dot_S128x32_S128x32_S128x128_1_1_0_0_n_n.lhsIdx j c 0).val = (j 0).val := by
  unfold DotDims.lhsIdx
  rw [dif_neg (show ¬(0 : Fin S128x32.rank) ∈ dot_S128x32_S128x32_S128x128_1_1_0_0_n_n.lhsBatch by decide),
    dif_pos (show (0 : Fin S128x32.rank) ∈ dot_S128x32_S128x32_S128x128_1_1_0_0_n_n.lhsNonContracting by decide)]
  rfl

theorem qk_r0 (j : S128x128.Idx) (c : dot_S128x32_S128x32_S128x128_1_1_0_0_n_n.contr.Idx) :
    (dot_S128x32_S128x32_S128x128_1_1_0_0_n_n.rhsIdx j c 0).val = (j 1).val := by
  unfold DotDims.rhsIdx
  rw [dif_neg (show ¬(0 : Fin S128x32.rank) ∈ dot_S128x32_S128x32_S128x128_1_1_0_0_n_n.rhsBatch by decide),
    dif_pos (show (0 : Fin S128x32.rank) ∈ dot_S128x32_S128x32_S128x128_1_1_0_0_n_n.rhsNonContracting by decide)]
  rfl

/-- The product of the weights with `v` keeps the output's row as the left index's row and the output's column as the
    right index's column. -/
theorem wv_l0 (j : S128x32.Idx) (c : dot_S128x128_S128x32_S128x32_1_0_0_1_n_n.contr.Idx) :
    (dot_S128x128_S128x32_S128x32_1_0_0_1_n_n.lhsIdx j c 0).val = (j 0).val := by
  unfold DotDims.lhsIdx
  rw [dif_neg (show ¬(0 : Fin S128x128.rank) ∈ dot_S128x128_S128x32_S128x32_1_0_0_1_n_n.lhsBatch by decide),
    dif_pos (show (0 : Fin S128x128.rank) ∈ dot_S128x128_S128x32_S128x32_1_0_0_1_n_n.lhsNonContracting by decide)]
  rfl

theorem wv_r1 (j : S128x32.Idx) (c : dot_S128x128_S128x32_S128x32_1_0_0_1_n_n.contr.Idx) :
    (dot_S128x128_S128x32_S128x32_1_0_0_1_n_n.rhsIdx j c 1).val = (j 1).val := by
  unfold DotDims.rhsIdx
  rw [dif_neg (show ¬(1 : Fin S128x32.rank) ∈ dot_S128x128_S128x32_S128x32_1_0_0_1_n_n.rhsBatch by decide),
    dif_pos (show (1 : Fin S128x32.rank) ∈ dot_S128x128_S128x32_S128x32_1_0_0_1_n_n.rhsNonContracting by decide)]
  rfl

variable (q k v : FVec Ideal S128x32 .bf16) (bias : FVec Ideal S128x128 .f32)

/-- The logits at (s, t). -/
theorem logits_apply (s t : Fin 128) :
    logits q k bias (ix2 s t)
      = hLogit (fun s d => q (ix2 s d)) (fun t d => k (ix2 t d)) (fun s t => bias (ix2 s t)) s t := by
  unfold logits hLogit
  rw [addf_apply, mulf_apply, broadcast_apply]
  refine congrArg (· * _ + _) ?_
  exact Cert.LibDotTransposed.matmul_zero_apply (M := 128) (K := 32) (P := 128)
    dot_S128x32_S128x32_S128x128_1_1_0_0_n_n rfl rfl qk_l0 qk_r0 rfl rfl none q k s t

/-- A row's maximum at `s`. -/
theorem rowMaxV_apply (L : FVec Ideal S128x128 .f32) (s : Fin 128) :
    rowMaxV L (ix1 s)
      = max negInf ((Finset.univ : Finset (Fin 128)).fold max negInf (fun t => L (ix2 s t))) := by
  unfold rowMaxV
  rw [maximumf_apply, broadcast_apply]
  refine congrArg (max _) ?_
  refine (Ideal.multiReduction_maximumf_single L 0xFF800000#32 reduces_S128x128_S128 (.inl rfl) rfl (ix1 s)).trans ?_
  refine congrArg (fun f => Finset.fold max _ f (Finset.univ : Finset (Fin 128))) ?_
  funext t
  exact congrArg L (lift_row reduces_S128x128_S128 s t)

/-- An exponential at (s, t). -/
theorem expoV_apply (L : FVec Ideal S128x128 .f32) (M : FVec Ideal S128 .f32) (s t : Fin 128) :
    expoV L M (ix2 s t) = Ideal.exp (L (ix2 s t) - M (ix1 s)) := by
  unfold expoV
  show Ideal.exp (subf L _ (ix2 s t)) = _
  rw [subf_apply, Cert.LibColumn.broadcastTo_a1_ab_apply, Cert.LibColumn.shapeCast_a_a1_apply]

/-- The weighted sum at (s, d). -/
theorem weighted_apply (E : FVec Ideal S128x128 .f32) (s : Fin 128) (d : Fin 32) :
    weighted E v (ix2 s d)
      = ∑ t : Fin 128, Ideal.div (E (ix2 s t)) (∑ t' : Fin 128, E (ix2 s t')) * v (ix2 t d) := by
  unfold weighted
  refine (Cert.LibPlainDot.matmul_zero_apply (M := 128) (K := 128) (P := 32)
    dot_S128x128_S128x32_S128x32_1_0_0_1_n_n rfl rfl wv_l0 wv_r1 rfl rfl none _ v s d).trans ?_
  refine Finset.sum_congr rfl fun t _ => congrArg (· * _) ?_
  rw [truncf_apply, divf_apply, Cert.LibColumn.broadcastTo_a1_ab_apply, Cert.LibColumn.shapeCast_a_a1_apply]
  refine congrArg (Ideal.div _) ?_
  refine (Ideal.multiReduction_add_single E 0x00000000#32 reduces_S128x128_S128 (.inl rfl) rfl (ix1 s)).trans ?_
  refine Finset.sum_congr rfl fun t' _ => ?_
  exact congrArg E (lift_row reduces_S128x128_S128 s t')

/-- One head at row `s`, lane `d`: the softmax-weighted sum of the value rows. -/
theorem headFn_apply (s : Fin 128) (d : Fin 32) :
    headFn q k v bias (ix2 s d)
      = hOut (fun s d => q (ix2 s d)) (fun t d => k (ix2 t d)) (fun t d => v (ix2 t d)) (fun s t => bias (ix2 s t)) s d := by
  unfold headFn hOut hWeight hSum hExp hMax
  rw [weighted_apply]
  refine Finset.sum_congr rfl fun t _ => congrArg (· * _) ?_
  have e : ∀ t' : Fin 128, expoV (logits q k bias) (rowMaxV (logits q k bias)) (ix2 s t')
      = Ideal.exp (hLogit (fun s d => q (ix2 s d)) (fun t d => k (ix2 t d)) (fun s t => bias (ix2 s t)) s t'
          - max negInf ((Finset.univ : Finset (Fin 128)).fold max negInf
              (fun t => hLogit (fun s d => q (ix2 s d)) (fun t d => k (ix2 t d)) (fun s t => bias (ix2 s t)) s t))) := by
    intro t'
    rw [expoV_apply, rowMaxV_apply, logits_apply]
    refine congrArg (fun f => Ideal.exp (_ - max negInf (Finset.fold max negInf f Finset.univ))) ?_
    funext t
    exact logits_apply q k bias s t
  rw [e t]
  exact congrArg (Ideal.div _) (Finset.sum_congr rfl fun t' _ => e t')

end Cert.AttnK

end
-- ==== Proof.RowSpec.lean ====
/-
  One batch entry's attention output as a function of that entry's 128 x 768 slab and of the bias.

  The specification reads the input only through the slab of the batch entry it computes: `rowOut xr B s c` is column
  `c` of position `s` computed from a slab `xr` — head `c / 32`, lane `c % 32` — and the specification at
  (b, s, c) is `rowOut` of the input's slab `b`.
-/
import proofs.«120545_j67473936221011_1_alg».proof.Proof.HeadSpec

noncomputable section

namespace Cert.Attn

open Idealize.ShloMosaic Idealize.ShloMosaic.ValueIdx

/-- The shape of one batch entry's slab: position, column. -/
abbrev RS : Shape := ⟨2, ![128, 768]⟩

/-- Column `c` of position `s` of one batch entry's output, from that entry's slab. -/
def rowOut (xr : RS.Idx → EReal) (B : BS.Idx → EReal) (s : Fin 128) (c : Fin 256) : EReal :=
  hOut (fun s d => xr (ix2 s (qcol (colHead c) d))) (fun t d => xr (ix2 t (kcol (colHead c) d)))
    (fun t d => xr (ix2 t (vcol (colHead c) d))) (fun s t => B (ix3 (colHead c) s t)) s (colLane c)

/-- Batch entry `b`'s slab of the input. -/
def slab (x : XS.Idx → EReal) (b : Fin 1024) : RS.Idx → EReal :=
  fun j => x (ix3 b ⟨(j 0).val, (j 0).isLt⟩ ⟨(j 1).val, (j 1).isLt⟩)

/-- The specification at (b, s, c) is `rowOut` of slab `b`. -/
theorem attn_eq_rowOut (x : XS.Idx → EReal) (B : BS.Idx → EReal) (b : Fin 1024) (s : Fin 128) (c : Fin 256) :
    attn x B (ix3 b s c) = rowOut (slab x b) B s c := rfl

/-- The head of column `32 h + d` is `h`. -/
theorem colHead_mk (h : Fin 8) (d : Fin 32) (c : Fin 256) (hc : c.val = h.val * 32 + d.val) : colHead c = h :=
  Fin.ext (by show c.val / 32 = h.val; have := d.isLt; omega)

/-- The lane of column `32 h + d` is `d`. -/
theorem colLane_mk (h : Fin 8) (d : Fin 32) (c : Fin 256) (hc : c.val = h.val * 32 + d.val) : colLane c = d :=
  Fin.ext (by show c.val % 32 = d.val; have := d.isLt; omega)

end Cert.Attn

end
-- ==== Proof.TripFn.lean ====
/-
  What one trip of the body's loop stores: the eight heads side by side.

  From the bias block `v1` ([8, 128, 128]) and the loaded row block `v7` ([128, 768]: one batch entry's slab), head `h`
  takes its query, key and value columns `32 h + [0, 32)`, `256 + 32 h + [0, 32)`, `512 + 32 h + [0, 32)` of `v7` and the
  bias table `h` of `v1` (`headAt`); the eight head outputs are concatenated along the columns and given a leading unit
  axis (`tripFn`). The trip's stored value, as the program's own chain of operations spells it, is this function of the
  two loads; and at (·, s, c) it is the specification's `rowOut` of the slab.
-/
import proofs.«120545_j67473936221011_1_alg».proof.Proof.Gen.KernelIdeal.Skeleton
import proofs.«120545_j67473936221011_1_alg».proof.Proof.HeadFn
import proofs.«120545_j67473936221011_1_alg».proof.Proof.RowSpec

set_option maxRecDepth 16384

noncomputable section

open scoped BigOperators

namespace Cert.AttnK

open Idealize.ShloMosaic Idealize.ShloMosaic.ValueIdx Cert.KernelIdeal Cert.KernelIdeal.Facts₀ Cert.Attn

/-- Thirty-two columns of the slab from column `o` on. -/
theorem slice_cols (o : ℕ) (ho : o + 32 ≤ 768) : S128x768.Slices ![0, o] S128x32 :=
  ⟨rfl, fun a => by
    match a with
    | ⟨0, _⟩ => exact Nat.le_refl 128
    | ⟨1, _⟩ => exact ho⟩

/-- One head's table of the bias block. -/
theorem slice_head (h : ℕ) (hh : h + 1 ≤ 8) : S8x128x128.Slices ![h, 0, 0] S1x128x128 :=
  ⟨rfl, fun a => by
    match a with
    | ⟨0, _⟩ => exact hh
    | ⟨1, _⟩ => exact Nat.le_refl 128
    | ⟨2, _⟩ => exact Nat.le_refl 128⟩

section AnyInstance

variable {F : FTy → Type} [FloatOps F]

/-- Columns `o + [0, 32)` of the slab. -/
def colsOf (v7 : FVec F S128x768 .f32) (o : ℕ) (ho : o + 32 ≤ 768) : FVec F S128x32 .bf16 :=
  truncf .bf16 (extractStridedSlice S128x32 ![0, o] v7 (slice_cols o ho)) bitsLt_bf16_f32

/-- Table `h` of the bias block. -/
def biasOf (v1 : FVec F S8x128x128 .f32) (h : ℕ) (hh : h + 1 ≤ 8) : FVec F S128x128 .f32 :=
  shapeCast S128x128 (extractStridedSlice S1x128x128 ![h, 0, 0] v1 (slice_head h hh)) shapeCasts_S1x128x128_S128x128

/-- Head `h`'s output from the two loads. -/
def headAt (v1 : FVec F S8x128x128 .f32) (v7 : FVec F S128x768 .f32) (h : Fin 8) : FVec F S128x32 .f32 :=
  headFn (colsOf v7 (h.val * 32) (by have := h.isLt; omega)) (colsOf v7 (256 + h.val * 32) (by have := h.isLt; omega))
    (colsOf v7 (512 + h.val * 32) (by have := h.isLt; omega)) (biasOf v1 h.val (by have := h.isLt; omega))

/-- The eight heads side by side, with a leading unit axis. -/
def tripFn (v1 : FVec F S8x128x128 .f32) (v7 : FVec F S128x768 .f32) : FVec F S1x128x256 .f32 :=
  shapeCast S1x128x256
    (concatenate S128x256 1 [⟨S128x32, headAt v1 v7 0⟩, ⟨S128x32, headAt v1 v7 1⟩, ⟨S128x32, headAt v1 v7 2⟩,
        ⟨S128x32, headAt v1 v7 3⟩, ⟨S128x32, headAt v1 v7 4⟩, ⟨S128x32, headAt v1 v7 5⟩, ⟨S128x32, headAt v1 v7 6⟩,
        ⟨S128x32, headAt v1 v7 7⟩]
      concatenates_S128x32_S128x32_S128x32_S128x32_S128x32_S128x32_S128x32_S128x32_S128x256_d1)
    shapeCasts_S128x256_S1x128x256

open Cert.KernelIdeal.Gen in
/-- The value a trip stores, as the program's chain of operations spells it from the bias load `v0` and the row load
    `v6`, is `tripFn` of the two loads. -/
theorem tripPay_eq (v0 : Vec F S8x128x128 .f32) (v6 : Vec F S1x128x768 .f32) :
    k0_pay2 (k0_pay4 (k0_pay1 v0) v6) (k0_pay8 (k0_pay5 v6) (k0_pay6 (k0_pay1 v0) v6) (k0_pay7 (k0_pay1 v0) v6))
        (k0_pay9 (k0_pay1 v0) (k0_pay3 v6))
        (k0_pay13 (k0_pay10 (k0_pay3 v6)) (k0_pay11 (k0_pay1 v0) (k0_pay3 v6)) (k0_pay12 (k0_pay1 v0) (k0_pay3 v6))
          (FloatOps.ofBits .f32 0xFF800000#32))
        (k0_pay14 (k0_pay1 v0) (k0_pay3 v6)) (k0_pay17 (k0_pay15 (k0_pay3 v6)) (k0_pay16 (k0_pay1 v0) (k0_pay3 v6)))
        (k0_pay18 (k0_pay1 v0) (k0_pay3 v6)) (k0_pay19 (k0_pay3 v6)) (k0_pay20 (k0_pay3 v6)) (k0_pay21 (k0_pay1 v0))
      = tripFn (k0_pay1 v0) (k0_pay3 v6) := rfl

end AnyInstance

/-! ## Read at an index -/

/-- Eight 128 x 32 tables side by side read, at column `32 h + d`, table `h` at lane `d`. -/
theorem concat8_apply {α : Type} (f : Fin 8 → (S128x32.Idx → α))
    (hc : Shape.Concatenates (([⟨S128x32, f 0⟩, ⟨S128x32, f 1⟩, ⟨S128x32, f 2⟩, ⟨S128x32, f 3⟩, ⟨S128x32, f 4⟩,
      ⟨S128x32, f 5⟩, ⟨S128x32, f 6⟩, ⟨S128x32, f 7⟩] : List ((s : Shape) × (s.Idx → α))).map (·.1)) S128x256 1)
    (s : Fin 128) (h : Fin 8) (d : Fin 32) (c : Fin 256) (hcv : c.val = h.val * 32 + d.val) :
    concatenate S128x256 1 [⟨S128x32, f 0⟩, ⟨S128x32, f 1⟩, ⟨S128x32, f 2⟩, ⟨S128x32, f 3⟩, ⟨S128x32, f 4⟩,
      ⟨S128x32, f 5⟩, ⟨S128x32, f 6⟩, ⟨S128x32, f 7⟩] hc (ix2 s c) = f h (ix2 s d) := by
  obtain ⟨k, hk⟩ := h
  refine concatenate_apply_piece (1 : Fin S128x256.rank) _ hc (ix2 s c) k (by simpa using hk) S128x32 (f ⟨k, hk⟩) ?_ rfl
    (k * 32) ?_ (ix2 s d) ?_ ?_
  · interval_cases k <;> rfl
  · interval_cases k <;> rfl
  · intro b hb
    match b with
    | ⟨0, _⟩ => rfl
    | ⟨1, _⟩ => exact absurd rfl hb
  · show k * 32 + d.val = c.val
    have : (⟨k, hk⟩ : Fin 8).val = k := rfl
    omega

variable (v1 : FVec Ideal S8x128x128 .f32) (v7 : FVec Ideal S128x768 .f32)

/-- The slab's columns `o + [0, 32)` at (s, d). -/
theorem colsOf_apply (o : ℕ) (ho : o + 32 ≤ 768) (s : Fin 128) (d : Fin 32) :
    colsOf v7 o ho (ix2 s d) = v7 (ix2 s (⟨o + d.val, by have := d.isLt; omega⟩ : Fin 768)) := by
  unfold colsOf
  rw [truncf_apply]
  refine extractStridedSlice_apply _ v7 _ (ix2 s d) _ fun a => ?_
  match a with
  | ⟨0, _⟩ => exact (Nat.zero_add _).symm
  | ⟨1, _⟩ => rfl

/-- Table `h` of the bias block at (s, t). -/
theorem biasOf_apply (h : Fin 8) (s t : Fin 128) :
    biasOf v1 h.val (by have := h.isLt; omega) (ix2 s t) = v1 (ix3 h s t) := by
  unfold biasOf
  refine (shapeCast_dropUnit_apply ![128, 128] _ _ (ix2 s t)).trans ?_
  refine extractStridedSlice_apply _ v1 _ _ (ix3 h s t) fun a => ?_
  match a with
  | ⟨0, _⟩ => rfl
  | ⟨1, _⟩ => exact (Nat.zero_add _).symm
  | ⟨2, _⟩ => exact (Nat.zero_add _).symm

/-- Head `h`'s output at (s, d) is the head's softmax-weighted sum over the slab's columns and its bias table. -/
theorem headAt_apply (h : Fin 8) (s : Fin 128) (d : Fin 32) :
    headAt v1 v7 h (ix2 s d)
      = hOut (fun s d => v7 (ix2 s (qcol h d))) (fun t d => v7 (ix2 t (kcol h d))) (fun t d => v7 (ix2 t (vcol h d)))
          (fun s t => v1 (ix3 h s t)) s d := by
  unfold headAt
  rw [headFn_apply]
  have eq : (fun (s : Fin 128) (d : Fin 32) => colsOf v7 (h.val * 32) (by have := h.isLt; omega) (ix2 s d))
      = fun s d => v7 (ix2 s (qcol h d)) := by
    funext s d; rw [colsOf_apply]; rfl
  have ek : (fun (t : Fin 128) (d : Fin 32) => colsOf v7 (256 + h.val * 32) (by have := h.isLt; omega) (ix2 t d))
      = fun t d => v7 (ix2 t (kcol h d)) := by
    funext t d; rw [colsOf_apply]
    exact congrArg (fun c => v7 (ix2 t c)) (Fin.ext (Nat.add_assoc 256 (h.val * 32) d.val))
  have ev : (fun (t : Fin 128) (d : Fin 32) => colsOf v7 (512 + h.val * 32) (by have := h.isLt; omega) (ix2 t d))
      = fun t d => v7 (ix2 t (vcol h d)) := by
    funext t d; rw [colsOf_apply]
    exact congrArg (fun c => v7 (ix2 t c)) (Fin.ext (Nat.add_assoc 512 (h.val * 32) d.val))
  have eb : (fun (s t : Fin 128) => biasOf v1 h.val (by have := h.isLt; omega) (ix2 s t)) = fun s t => v1 (ix3 h s t) := by
    funext s t; exact biasOf_apply v1 h s t
  rw [eq, ek, ev, eb]

/-- The trip's value at (·, s, c) is the specification's output for the slab `v7` and the bias block `v1`. -/
theorem tripFn_apply (u : Fin 1) (s : Fin 128) (c : Fin 256) :
    tripFn v1 v7 (ix3 u s c) = rowOut v7 v1 s c := by
  unfold tripFn
  refine (shapeCast_addUnit_apply ![128, 256] _ _ (ix3 u s c)).trans ?_
  have ej : (fun a : Fin 2 => (ix3 u s c) a.succ) = ix2 s c := by
    funext a
    match a with
    | ⟨0, _⟩ => rfl
    | ⟨1, _⟩ => rfl
  rw [ej]
  have hd : c.val = (colHead c).val * 32 + (colLane c).val := by
    show c.val = c.val / 32 * 32 + c.val % 32
    omega
  refine (concat8_apply (fun h => headAt v1 v7 h) _ s (colHead c) (colLane c) c hd).trans ?_
  rw [headAt_apply]
  rfl

end Cert.AttnK

end
-- ==== Proof.BlockFn.lean ====
/-
  The output block a grid point leaves, as one function of its two input blocks.

  At a grid point the body loads the whole bias block `x1` once and then, for each of the 32 batch entries `k` of the
  input block `x0` ([32, 128, 768]), loads that entry's slab, computes the eight heads side by side and stores the
  [1, 128, 256] result at batch entry `k` of the output block. So the output block at (k, s, c) is the specification's
  `rowOut` of slab `k` of the input block (`blockFn`).

  The run's pieces are those of the 32 trips, newest first; each trip's list is its one store. Every piece is the
  restriction of `blockFn` to its rectangle, and the pieces cover the block, so the block read back is `blockFn`.
-/
import proofs.«120545_j67473936221011_1_alg».proof.Proof.Gen.KernelIdeal.Frame
import proofs.«120545_j67473936221011_1_alg».proof.Proof.TripFn
import Idealize.ShloMosaic.Lib.Writes
import Idealize.ShloMosaic.Lib.Pipeline.Value

set_option maxRecDepth 16384

noncomputable section

namespace Cert.AttnK

open Idealize.ShloMosaic Idealize.ShloMosaic.ValueIdx Idealize.ShloMosaic.TcCoe Idealize.ShloMosaic.Tactic
open Idealize.SL Idealize.SL.Sem
open Cert.KernelIdeal Cert.KernelIdeal.Gen Cert.Attn

/-- Slab `k` of an input block. -/
def blockSlab (x0 : S32x128x768.Idx → EReal) (k : Fin 32) : RS.Idx → EReal :=
  fun j => x0 (ix3 k ⟨(j 0).val, (j 0).isLt⟩ ⟨(j 1).val, (j 1).isLt⟩)

/-- The output block: at (k, s, c) the specification's output for slab `k` of the input block. -/
def blockFn (x0 : S32x128x768.Idx → EReal) (x1 : S8x128x128.Idx → EReal) (y : S32x128x256.Idx) : EReal :=
  rowOut (blockSlab x0 ⟨(y 0).val, (y 0).isLt⟩) x1 ⟨(y 1).val, (y 1).isLt⟩ ⟨(y 2).val, (y 2).isLt⟩

section AnyInstance

variable {F : FTy → Type} [FloatOps F]

/-- One trip's pieces: its one store, at the trip's offset, of the eight heads of the slab loaded at the trip's offset. -/
theorem tripL_eq (𝒱 : Variants) (c : Dev nD) (bd : Option 𝒱.V) (i : grid0.Coords)
    (arg1 : Memref sig .tc .vmem S32x128x768 .f32) (harg1 : arg1.IsWhole) (arg2 : Memref sig .tc .vmem S8x128x128 .f32)
    (harg2 : arg2.IsWhole) (arg3 : Memref sig .tc .vmem S32x128x256 .f32) (harg3 : arg3.IsWhole)
    (v0 : Vec F S8x128x128 .f32) (X_arg1 : BufTy.Contents (Elt F) arg1.view.ty) (k : Fin k0_t1_loop.trips) :
    tripL_k0_t1 (F := F) 𝒱 c bd i arg1 harg1 arg2 harg2 arg3 harg3 v0 X_arg1 k
      = [⟨Rect.unit (s := S32x128x256) (k0_off2 k) S1x128x256.size (k0_off2_inb k),
          tripFn (k0_pay1 v0)
            (k0_pay3 (View.readAt (Elt F) arg1.view (Rect.unit (s := S32x128x768) (k0_off1 k) S1x128x768.size (k0_off1_inb k)).toLoadRect X_arg1))⟩] := by
  unfold tripL_k0_t1 trip_k0_t1
  dsimp only
  sl_unfold_run_names
  rfl

/-- The run's pieces: those of the loop's trips, over the bias block's load and the input block. -/
theorem run_pieces (c : Dev nD) (i : grid0.Coords)
    (arg1 : Memref sig .tc .vmem S32x128x768 .f32) (harg1 : arg1.IsWhole) (arg2 : Memref sig .tc .vmem S8x128x128 .f32)
    (harg2 : arg2.IsWhole) (arg3 : Memref sig .tc .vmem S32x128x256 .f32) (harg3 : arg3.IsWhole)
    (x0 : Vec F S32x128x768 .f32) (x1 : Vec F S8x128x128 .f32) :
    (kernelRun0_A (F := F) c i arg1 harg1 arg2 harg2 arg3 harg3 x0 x1).1
      = pb_k0_t1 Variants.none c none i arg1 harg1 arg2 harg2 arg3 harg3
          (View.readAt (Elt F) arg2.view
            (Rect.unit (s := S8x128x128) ![0, 0, 0] S8x128x128.size inb_S8x128x128_S8x128x128_0_0_0).toLoadRect (harg2.unread x1))
          (harg1.unread x0) k0_t1_loop.trips := by
  unfold kernelRun0_A
  dsimp only

/-- If every trip's one piece is the restriction of `G` to its rectangle, so is every piece of the trips before `n`. -/
theorem pb_pieces (c : Dev nD) (i : grid0.Coords)
    (arg1 : Memref sig .tc .vmem S32x128x768 .f32) (harg1 : arg1.IsWhole) (arg2 : Memref sig .tc .vmem S8x128x128 .f32)
    (harg2 : arg2.IsWhole) (arg3 : Memref sig .tc .vmem S32x128x256 .f32) (harg3 : arg3.IsWhole)
    (v0 : Vec F S8x128x128 .f32) (X_arg1 : BufTy.Contents (Elt F) arg1.view.ty) (G : S32x128x256.Idx → Elt F .f32)
    (hG : ∀ (k : Fin k0_t1_loop.trips) (x : S1x128x256.Idx),
      tripFn (k0_pay1 v0)
          (k0_pay3 (View.readAt (Elt F) arg1.view (Rect.unit (s := S32x128x768) (k0_off1 k) S1x128x768.size (k0_off1_inb k)).toLoadRect X_arg1)) x
        = G ((Rect.unit (s := S32x128x256) (k0_off2 k) S1x128x256.size (k0_off2_inb k)).emb x)) :
    ∀ n : ℕ, ∀ p ∈ pb_k0_t1 (F := F) Variants.none c none i arg1 harg1 arg2 harg2 arg3 harg3 v0 X_arg1 n,
      ∀ x : p.1.shape.Idx, p.2 x = G (p.1.emb x)
  | 0 => by
    intro p hp
    rw [pb_k0_t1.eq_1] at hp
    exact absurd hp List.not_mem_nil
  | n + 1 => by
    intro p hp
    rw [pb_k0_t1.eq_2] at hp
    unfold pb_k0_t1Step at hp
    split at hp
    · rename_i h
      rw [tripL_eq] at hp
      rcases List.mem_append.mp hp with hp | hp
      · obtain rfl := List.mem_singleton.mp hp
        exact hG ⟨n, h⟩
      · exact pb_pieces c i arg1 harg1 arg2 harg2 arg3 harg3 v0 X_arg1 G hG n p hp
    · exact pb_pieces c i arg1 harg1 arg2 harg2 arg3 harg3 v0 X_arg1 G hG n p hp

end AnyInstance

/-! ## On the extended reals -/

/-- `rowOut` at equal arguments. -/
theorem rowOut_congr {xr xr' : RS.Idx → EReal} {B B' : BS.Idx → EReal} {s s' : Fin 128} {c c' : Fin 256}
    (hx : xr = xr') (hB : B = B') (hs : s = s') (hc : c = c') : rowOut xr B s c = rowOut xr' B' s' c' := by
  subst hx hB hs hc; rfl

/-- The output block a grid point leaves is `blockFn` of its two input blocks. -/
theorem out_block (c : Dev nD) (i : grid0.Coords)
    (arg1 : Memref sig .tc .vmem S32x128x768 .f32) (harg1 : arg1.IsWhole) (arg2 : Memref sig .tc .vmem S8x128x128 .f32)
    (harg2 : arg2.IsWhole) (arg3 : Memref sig .tc .vmem S32x128x256 .f32) (harg3 : arg3.IsWhole)
    (x0 : Vec Ideal S32x128x768 .f32) (x1 : Vec Ideal S8x128x128 .f32) :
    out0_A_2 (F := Ideal) c i arg1 harg1 arg2 harg2 arg3 harg3 x0 x1 = blockFn x0 x1 := by
  funext y
  unfold out0_A_2
  refine View.read_writes_apply_of_pieces VO0_2 _ (blockFn x0 x1) _ ?_ y
    (cover0_A_2 c i arg1 harg1 arg2 harg2 arg3 harg3 x0 x1 y)
  rw [run_pieces]
  refine pb_pieces (F := Ideal) c i arg1 harg1 arg2 harg2 arg3 harg3 _ _ (blockFn x0 x1) (fun k x => ?_) _
  have hk : k.val < 32 := Nat.lt_of_lt_of_le k.isLt k0_t1_abs.2.1
  obtain ⟨u, s, cc, rfl⟩ : ∃ (u : Fin 1) (s : Fin 128) (cc : Fin 256), x = ix3 u s cc := ⟨x 0, x 1, x 2, eq_ix3 x⟩
  rw [tripFn_apply]
  have hu : u.val = 0 := by omega
  unfold blockFn
  refine rowOut_congr ?_ ?_ ?_ ?_
  · -- the loaded slab is slab `k` of the input block
    funext j
    have e1 : ∀ row : Vec Ideal S1x128x768 .f32, k0_pay3 row j = row (Fin.cons ⟨0, Nat.one_pos⟩ j) :=
      fun row => shapeCast_dropUnit_apply ![128, 768] row _ j
    rw [e1, View.readAt_apply, harg1.read_unread]
    refine congrArg x0 (funext fun a => Fin.ext ?_)
    match a with
    | ⟨0, _⟩ =>
      show k0_off1 k 0 + 1 * 0 = k0_off2 k 0 + 1 * u.val
      rw [k0_off1_eq, k0_off2_eq, hu]
    | ⟨1, _⟩ =>
      show k0_off1 k 1 + 1 * (j 0).val = (j 0).val
      rw [k0_off1_eq]; show 0 + 1 * (j 0).val = (j 0).val; omega
    | ⟨2, _⟩ =>
      show k0_off1 k 2 + 1 * (j 1).val = (j 1).val
      rw [k0_off1_eq]; show 0 + 1 * (j 1).val = (j 1).val; omega
  · -- the bias block's load is the bias block
    refine (shapeCast_self _ _).trans ?_
    rw [View.readAt_eq_ld, harg2.read_unread]
    exact View.ld_unit_zero (funext fun a => by fin_cases a <;> rfl) _ x1
  · refine Fin.ext ?_
    show s.val = k0_off2 k 1 + 1 * s.val
    rw [k0_off2_eq]; show s.val = 0 + 1 * s.val; omega
  · refine Fin.ext ?_
    show cc.val = k0_off2 k 2 + 1 * cc.val
    rw [k0_off2_eq]; show cc.val = 0 + 1 * cc.val; omega

end Cert.AttnK

end
-- ==== Proof.ArrayK.lean ====
/-
  From the blocks to the whole result array.

  The grid has 32 points; point `t` stages batch entries `32 t + [0, 32)` of the input (its block index on the first axis
  is the output window's, and zero on the other two), the whole bias array (block index zero on every axis), and writes
  back batch entries `32 t + [0, 32)` of the result. What point `t` writes back is therefore block `t` of the
  specification applied to the input array and the bias array as the region finds them; the 32 blocks cover the result
  array; so the array ends holding the specification.
-/
import proofs.«120545_j67473936221011_1_alg».proof.Proof.Gen.KernelIdeal.Value
import proofs.«120545_j67473936221011_1_alg».proof.Proof.BlockFn
import Idealize.ShloMosaic.Lib.Pipeline.Value

set_option maxRecDepth 16384

noncomputable section

namespace Cert.AttnK

open Idealize.ShloMosaic Idealize.ShloMosaic.ValueIdx Idealize.ShloMosaic.TcCoe
open Idealize.SL Idealize.SL.Sem
open Idealize.ShloMosaic.Pipeline (Dat)
open Cert.KernelIdeal Cert.KernelIdeal.Gen Cert.KernelIdeal.Value Cert.Attn

variable (m : (ℓ : Loc nD τ sig) → Buf (Elt Ideal) ℓ) (ρ : Dev nD → PrngReg)

/-- The printed index maps, decided over the grid: the input window moves with the output window along the batch axis
    and sits at block zero on the other two axes; the bias window sits at block zero; the output window's batch block
    index is at most 31. -/
theorem idx_facts : ∀ t : Fin cfg0.N,
    win0_0.index t (0 : Fin 3) = win0_2.index t (0 : Fin 3) ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (1 : Fin 3) = 0 ∧ win0_2.index t (2 : Fin 3) = 0 ∧ win0_2.index t (0 : Fin 3) ≤ 31 :=
  (by decide +kernel : ∀ t : Fin grid0.N, _)

/-- Every batch block of the result is some point's. -/
theorem idx_onto : ∀ q0 : Fin 32, ∃ t : Fin cfg0.N, win0_2.index t = ![q0.val, 0, 0] :=
  (by decide +kernel : ∀ q0 : Fin 32, ∃ t : Fin grid0.N, win0_2.index t = ![q0.val, 0, 0])

/-- What point `t` writes back is block `t` of the specification of the input array and the bias array as the region
    finds them. -/
theorem flushed_eq (c : Dev nD) (t : Fin cfg0.N) :
    (dats m 0 c).flushed 2 t
      = ((cfg0.win 2).blk t).view.read (Elt Ideal) (attn (V m c main_arg0) (V m c main_v18)) := by
  refine (flushed2_A m c t).trans ?_
  rw [out_block c (grid0.coords t) (ms0_0 t) (hs0_0 t) (ms0_1 t) (hs0_1 t) (ms0_2 t) (hs0_2 t) (iblk m c 0 t) (iblk m c 1 t)]
  obtain ⟨e0, e1, e2, e3, e4, e5, e6, e7, e8⟩ := idx_facts t
  funext j
  show blockFn (iblk m c 0 t) (iblk m c 1 t) j
    = attn (V m c main_arg0) (V m c main_v18) (((cfg0.win 2).blk t).view.emb j)
  obtain ⟨k, s, cc, rfl⟩ : ∃ (k : Fin 32) (s : Fin 128) (cc : Fin 256), j = ix3 k s cc := ⟨j 0, j 1, j 2, eq_ix3 j⟩
  have hk : k.val < 32 := k.isLt
  have hb : win0_2.index t (0 : Fin 3) * 32 + k.val < 1024 := by omega
  have eidx : ((cfg0.win 2).blk t).view.emb (ix3 k s cc)
      = ix3 (⟨win0_2.index t (0 : Fin 3) * 32 + k.val, hb⟩ : Fin 1024) s cc := by
    funext a; apply Fin.ext
    match a with
    | ⟨0, _⟩ => show win0_2.index t (0 : Fin 3) * 32 + 1 * k.val = win0_2.index t (0 : Fin 3) * 32 + k.val; omega
    | ⟨1, _⟩ => show win0_2.index t (1 : Fin 3) * 128 + 1 * s.val = s.val; omega
    | ⟨2, _⟩ => show win0_2.index t (2 : Fin 3) * 256 + 1 * cc.val = cc.val; omega
  rw [eidx, attn_eq_rowOut]
  unfold blockFn
  refine rowOut_congr ?_ ?_ rfl rfl
  · -- slab `k` of the staged input block is slab `32 t + k` of the input array
    funext jj
    show V m c main_arg0 (((cfg0.win 0).blk t).view.emb (ix3 k ⟨(jj 0).val, (jj 0).isLt⟩ ⟨(jj 1).val, (jj 1).isLt⟩))
      = V m c main_arg0 (ix3 (⟨win0_2.index t (0 : Fin 3) * 32 + k.val, hb⟩ : Fin 1024) ⟨(jj 0).val, (jj 0).isLt⟩
          ⟨(jj 1).val, (jj 1).isLt⟩)
    refine congrArg (V m c main_arg0) (funext fun a => Fin.ext ?_)
    match a with
    | ⟨0, _⟩ => show win0_0.index t (0 : Fin 3) * 32 + 1 * k.val = win0_2.index t (0 : Fin 3) * 32 + k.val; omega
    | ⟨1, _⟩ => show win0_0.index t (1 : Fin 3) * 128 + 1 * (jj 0).val = (jj 0).val; omega
    | ⟨2, _⟩ => show win0_0.index t (2 : Fin 3) * 768 + 1 * (jj 1).val = (jj 1).val; omega
  · -- the staged bias block is the bias array
    funext y
    show V m c main_v18 (((cfg0.win 1).blk t).view.emb y) = V m c main_v18 y
    refine congrArg (V m c main_v18) (funext fun a => Fin.ext ?_)
    match a with
    | ⟨0, _⟩ => show win0_1.index t (0 : Fin 3) * 8 + 1 * (y 0).val = (y 0).val; omega
    | ⟨1, _⟩ => show win0_1.index t (1 : Fin 3) * 128 + 1 * (y 1).val = (y 1).val; omega
    | ⟨2, _⟩ => show win0_1.index t (2 : Fin 3) * 128 + 1 * (y 2).val = (y 2).val; omega

/-- An index of the result array is in point `t`'s block iff each coordinate is in the block's range on its axis. -/
theorem mem_blk (t : Fin cfg0.N) (i : S1024x128x256.Idx) :
    i ∈ ((cfg0.win 2).blk t).view.set ↔ ∀ a : Fin 3, win0_2.index t a * S32x128x256.size a ≤ (i a).val
      ∧ (i a).val < win0_2.index t a * S32x128x256.size a + S32x128x256.size a := by
  show i ∈ ((View.whole main_v19).slice (win0_2.rect t)).set ↔ _
  rw [View.set_slice_whole, Rect.mem_set_unit]
  exact Iff.rfl

/-- Every index of the result array is in the block of the point that writes back its batch entry. -/
theorem cover (i : S1024x128x256.Idx) :
    ∃ t : Fin cfg0.N, (cfg0.win 2).flush t = true ∧ i ∈ ((cfg0.win 2).blk t).view.set := by
  have hi0 : (i 0).val < 1024 := (i 0).isLt
  have hi1 : (i 1).val < 128 := (i 1).isLt
  have hi2 : (i 2).val < 256 := (i 2).isLt
  obtain ⟨t, ht⟩ := idx_onto ⟨(i 0).val / 32, by omega⟩
  have q0 : win0_2.index t (0 : Fin 3) = (i 0).val / 32 := congrFun ht 0
  have q1 : win0_2.index t (1 : Fin 3) = 0 := congrFun ht 1
  have q2 : win0_2.index t (2 : Fin 3) = 0 := congrFun ht 2
  refine ⟨t, flush0_2 t, ?_⟩
  rw [mem_blk]
  intro a
  match a with
  | ⟨0, _⟩ =>
    show win0_2.index t (0 : Fin 3) * 32 ≤ (i 0).val ∧ (i 0).val < win0_2.index t (0 : Fin 3) * 32 + 32
    omega
  | ⟨1, _⟩ =>
    show win0_2.index t (1 : Fin 3) * 128 ≤ (i 1).val ∧ (i 1).val < win0_2.index t (1 : Fin 3) * 128 + 128
    omega
  | ⟨2, _⟩ =>
    show win0_2.index t (2 : Fin 3) * 256 ≤ (i 2).val ∧ (i 2).val < win0_2.index t (2 : Fin 3) * 256 + 256
    omega

/-- The result array after the run is the specification of the input array and the bias array as the region finds them. -/
theorem final (c : Dev nD) : (dats m 0 c).arrAt 2 cfg0.N = attn (V m c main_arg0) (V m c main_v18) :=
  (dats m 0 c).arrAt_eq_of_cover 2 _ (fun t _ => flushed_eq m c t) cover

/-- The kernel's run: the result array ends at the specification of the input argument and the bias array the host
    operations computed; the arguments end unchanged. -/
theorem run : θ_run defs (onTc (τ := τ) (main (F := Ideal))) ⟨m, fun _ => 0, ρ⟩ fun r => ∀ c : Dev nD,
      r.2.mem ((c : Thread nD τ).loc main_v19) = attn (m ((c : Thread nD τ).loc main_arg0)) (V m c main_v18)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((final m c).trans (by rw [V_main_arg0])), (h c).2⟩)
    (run_blocks m ρ)

end Cert.AttnK

end
-- ==== Proof.RefAttnQKV.lean ====
/-
  The reference program's three views of its input. The program reshapes the [1024, 128, 768] input to
  [1024, 128, 3, 8, 32], moves the axis of size three to the front, cuts the three slabs apart and flattens each to
  [1024, 8, 128, 32]. Read at (b, h, s, d), slab number c is the input at batch entry b, position s and column
  256 c + 32 h + d: the query, key and value columns of the specification.
-/
import proofs.«120545_j67473936221011_1_alg».proof.Proof.Gen.ReferenceIdeal.Read
import proofs.«120545_j67473936221011_1_alg».proof.Proof.Spec

noncomputable section

open scoped BigOperators

namespace Cert.RefAttn

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx Cert.Attn

/-- The flat position ((8 b + h) 128 + s) 32 + d splits back into its four coordinates. -/
theorem split4 (b h s d : Nat) (hb : b < 1024) (hh : h < 8) (hs : s < 128) (hd : d < 32) :
    (((b * 8 + h) * 128 + s) * 32 + d) / 32768 % 1024 = b ∧ (((b * 8 + h) * 128 + s) * 32 + d) / 32 % 128 = s ∧ (((b * 8 + h) * 128 + s) * 32 + d) / 4096 % 8 = h ∧ (((b * 8 + h) * 128 + s) * 32 + d) % 32 = d := by
  refine ⟨?_, ?_, ?_, ?_⟩ <;> omega

/-- The flat position of (b, s, c, h, d) in [1024, 128, 3, 8, 32], read in [1024, 128, 768], is (b, s, 256 c + 32 h + d). -/
theorem join5 (b s c h d : Nat) (hb : b < 1024) (hs : s < 128) (hc : c < 3) (hh : h < 8) (hd : d < 32) :
    ((((b * 128 + s) * 3 + c) * 8 + h) * 32 + d) / 98304 = b ∧ ((((b * 128 + s) * 3 + c) * 8 + h) * 32 + d) / 768 % 128 = s ∧ ((((b * 128 + s) * 3 + c) * 8 + h) * 32 + d) % 768 = 256 * c + 32 * h + d := by
  refine ⟨?_, ?_, ?_⟩ <;> omega

/-- The query view at (b, h, s, d) is the input at position `s`, column `32 h + d`. -/
theorem q_apply (x0 : (⟨S1024x128x768, .f32⟩ : BufTy).Contents (Elt Ideal)) (b : Fin 1024) (h : Fin 8) (s : Fin 128) (d : Fin 32) :
    val_main_v3 (F := Ideal) x0 (ix4 b h s d) = x0 (ix3 b s (qcol h d)) := by
  refine (val_main_v3_apply x0 _).trans ?_
  refine (val_main_v2_apply x0 _).trans ?_
  refine (val_main_v1_apply x0 _).trans ?_
  refine (val_main_v0_apply x0 _).trans ?_
  refine congrArg x0 (funext fun a => ?_)
  obtain ⟨e0, e1, e2, e3⟩ := split4 b.val h.val s.val d.val b.isLt h.isLt s.isLt d.isLt
  obtain ⟨j0, j1, j2⟩ := join5 b.val s.val 0 h.val d.val b.isLt s.isLt (by omega) h.isLt d.isLt
  match a with
  | ⟨0, _⟩ => exact Fin.ext (by show ((((((((b.val * 8 + h.val) * 128 + s.val) * 32 + d.val) / 32768 % 1024) * 128 + (((b.val * 8 + h.val) * 128 + s.val) * 32 + d.val) / 32 % 128) * 3 + 0) * 8 + (((b.val * 8 + h.val) * 128 + s.val) * 32 + d.val) / 4096 % 8) * 32 + (((b.val * 8 + h.val) * 128 + s.val) * 32 + d.val) % 32) / 98304 = b.val; rw [e0, e1, e2, e3]; exact j0)
  | ⟨1, _⟩ => exact Fin.ext (by show ((((((((b.val * 8 + h.val) * 128 + s.val) * 32 + d.val) / 32768 % 1024) * 128 + (((b.val * 8 + h.val) * 128 + s.val) * 32 + d.val) / 32 % 128) * 3 + 0) * 8 + (((b.val * 8 + h.val) * 128 + s.val) * 32 + d.val) / 4096 % 8) * 32 + (((b.val * 8 + h.val) * 128 + s.val) * 32 + d.val) % 32) / 768 % 128 = s.val; rw [e0, e1, e2, e3]; exact j1)
  | ⟨2, _⟩ => exact Fin.ext (by show ((((((((b.val * 8 + h.val) * 128 + s.val) * 32 + d.val) / 32768 % 1024) * 128 + (((b.val * 8 + h.val) * 128 + s.val) * 32 + d.val) / 32 % 128) * 3 + 0) * 8 + (((b.val * 8 + h.val) * 128 + s.val) * 32 + d.val) / 4096 % 8) * 32 + (((b.val * 8 + h.val) * 128 + s.val) * 32 + d.val) % 32) % 768 = h.val * 32 + d.val; rw [e0, e1, e2, e3]; exact j2.trans (by omega))

/-- The key view at (b, h, s, d) is the input at position `s`, column `256 + 32 h + d`. -/
theorem k_apply (x0 : (⟨S1024x128x768, .f32⟩ : BufTy).Contents (Elt Ideal)) (b : Fin 1024) (h : Fin 8) (s : Fin 128) (d : Fin 32) :
    val_main_v5 (F := Ideal) x0 (ix4 b h s d) = x0 (ix3 b s (kcol h d)) := by
  refine (val_main_v5_apply x0 _).trans ?_
  refine (val_main_v4_apply x0 _).trans ?_
  refine (val_main_v1_apply x0 _).trans ?_
  refine (val_main_v0_apply x0 _).trans ?_
  refine congrArg x0 (funext fun a => ?_)
  obtain ⟨e0, e1, e2, e3⟩ := split4 b.val h.val s.val d.val b.isLt h.isLt s.isLt d.isLt
  obtain ⟨j0, j1, j2⟩ := join5 b.val s.val 1 h.val d.val b.isLt s.isLt (by omega) h.isLt d.isLt
  match a with
  | ⟨0, _⟩ => exact Fin.ext (by show ((((((((b.val * 8 + h.val) * 128 + s.val) * 32 + d.val) / 32768 % 1024) * 128 + (((b.val * 8 + h.val) * 128 + s.val) * 32 + d.val) / 32 % 128) * 3 + 1) * 8 + (((b.val * 8 + h.val) * 128 + s.val) * 32 + d.val) / 4096 % 8) * 32 + (((b.val * 8 + h.val) * 128 + s.val) * 32 + d.val) % 32) / 98304 = b.val; rw [e0, e1, e2, e3]; exact j0)
  | ⟨1, _⟩ => exact Fin.ext (by show ((((((((b.val * 8 + h.val) * 128 + s.val) * 32 + d.val) / 32768 % 1024) * 128 + (((b.val * 8 + h.val) * 128 + s.val) * 32 + d.val) / 32 % 128) * 3 + 1) * 8 + (((b.val * 8 + h.val) * 128 + s.val) * 32 + d.val) / 4096 % 8) * 32 + (((b.val * 8 + h.val) * 128 + s.val) * 32 + d.val) % 32) / 768 % 128 = s.val; rw [e0, e1, e2, e3]; exact j1)
  | ⟨2, _⟩ => exact Fin.ext (by show ((((((((b.val * 8 + h.val) * 128 + s.val) * 32 + d.val) / 32768 % 1024) * 128 + (((b.val * 8 + h.val) * 128 + s.val) * 32 + d.val) / 32 % 128) * 3 + 1) * 8 + (((b.val * 8 + h.val) * 128 + s.val) * 32 + d.val) / 4096 % 8) * 32 + (((b.val * 8 + h.val) * 128 + s.val) * 32 + d.val) % 32) % 768 = 256 + (h.val * 32 + d.val); rw [e0, e1, e2, e3]; exact j2.trans (by omega))

/-- The value view at (b, h, s, d) is the input at position `s`, column `512 + 32 h + d`. -/
theorem v_apply (x0 : (⟨S1024x128x768, .f32⟩ : BufTy).Contents (Elt Ideal)) (b : Fin 1024) (h : Fin 8) (s : Fin 128) (d : Fin 32) :
    val_main_v7 (F := Ideal) x0 (ix4 b h s d) = x0 (ix3 b s (vcol h d)) := by
  refine (val_main_v7_apply x0 _).trans ?_
  refine (val_main_v6_apply x0 _).trans ?_
  refine (val_main_v1_apply x0 _).trans ?_
  refine (val_main_v0_apply x0 _).trans ?_
  refine congrArg x0 (funext fun a => ?_)
  obtain ⟨e0, e1, e2, e3⟩ := split4 b.val h.val s.val d.val b.isLt h.isLt s.isLt d.isLt
  obtain ⟨j0, j1, j2⟩ := join5 b.val s.val 2 h.val d.val b.isLt s.isLt (by omega) h.isLt d.isLt
  match a with
  | ⟨0, _⟩ => exact Fin.ext (by show ((((((((b.val * 8 + h.val) * 128 + s.val) * 32 + d.val) / 32768 % 1024) * 128 + (((b.val * 8 + h.val) * 128 + s.val) * 32 + d.val) / 32 % 128) * 3 + 2) * 8 + (((b.val * 8 + h.val) * 128 + s.val) * 32 + d.val) / 4096 % 8) * 32 + (((b.val * 8 + h.val) * 128 + s.val) * 32 + d.val) % 32) / 98304 = b.val; rw [e0, e1, e2, e3]; exact j0)
  | ⟨1, _⟩ => exact Fin.ext (by show ((((((((b.val * 8 + h.val) * 128 + s.val) * 32 + d.val) / 32768 % 1024) * 128 + (((b.val * 8 + h.val) * 128 + s.val) * 32 + d.val) / 32 % 128) * 3 + 2) * 8 + (((b.val * 8 + h.val) * 128 + s.val) * 32 + d.val) / 4096 % 8) * 32 + (((b.val * 8 + h.val) * 128 + s.val) * 32 + d.val) % 32) / 768 % 128 = s.val; rw [e0, e1, e2, e3]; exact j1)
  | ⟨2, _⟩ => exact Fin.ext (by show ((((((((b.val * 8 + h.val) * 128 + s.val) * 32 + d.val) / 32768 % 1024) * 128 + (((b.val * 8 + h.val) * 128 + s.val) * 32 + d.val) / 32 % 128) * 3 + 2) * 8 + (((b.val * 8 + h.val) * 128 + s.val) * 32 + d.val) / 4096 % 8) * 32 + (((b.val * 8 + h.val) * 128 + s.val) * 32 + d.val) % 32) % 768 = 512 + (h.val * 32 + d.val); rw [e0, e1, e2, e3]; exact j2.trans (by omega))

end Cert.RefAttn

end
-- ==== Proof.RefAttnLogit.lean ====
/-
  The reference program's scores. Its first contraction pairs query row s with key row t of head h over the 32 lanes;
  the result is multiplied by the constant word and the bias table of head h is added, the same table for every batch
  entry. Read at (b, h, s, t) this is the specification's logit. The bias array is whatever the program's preceding
  operations make of its second argument; it is carried as one array and never opened.
-/
import proofs.«120545_j67473936221011_1_alg».proof.Proof.RefAttnQKV

noncomputable section

open scoped BigOperators

namespace Cert.RefAttn

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx Cert.Attn

/-- The first contraction at (b, h, s, t): the sum over the lanes of query times key. -/
theorem dot_apply (x0 : (⟨S1024x128x768, .f32⟩ : BufTy).Contents (Elt Ideal)) (b : Fin 1024) (h : Fin 8) (s t : Fin 128) :
    val_main_v8 (F := Ideal) x0 (ix4 b h s t)
      = ∑ d : Fin 32, x0 (ix3 b s (qcol h d)) * x0 (ix3 b t (kcol h d)) := by
  refine (val_main_v8_apply x0 _).trans ?_
  refine Finset.sum_congr rfl fun d _ => ?_
  have el : lidx_main_v8 (ix4 b h s t) d = ix4 b h s d := funext fun a => by
    match a with | ⟨0, _⟩ => rfl | ⟨1, _⟩ => rfl | ⟨2, _⟩ => rfl | ⟨3, _⟩ => rfl
  have er : ridx_main_v8 (ix4 b h s t) d = ix4 b h t d := funext fun a => by
    match a with | ⟨0, _⟩ => rfl | ⟨1, _⟩ => rfl | ⟨2, _⟩ => rfl | ⟨3, _⟩ => rfl
  rw [el, er, q_apply, k_apply]

/-- The broadcast constant is the specification's scale at every index. -/
theorem scale_apply (i : S1024x8x128x128.Idx) : val_main_v9 (F := Ideal) i = scale :=
  (val_main_v9_apply i).trans rfl

/-- The broadcast bias at (b, h, s, t) is the bias array at (h, s, t). -/
theorem bias_apply (x1 : (⟨S31x8x8x8, .f32⟩ : BufTy).Contents (Elt Ideal)) (b : Fin 1024) (h : Fin 8) (s t : Fin 128) :
    val_main_v31 (F := Ideal) x1 (ix4 b h s t) = val_main_v29 (F := Ideal) x1 (ix3 h s t) := by
  refine (val_main_v31_apply x1 _).trans ?_
  refine (val_main_v30_apply x1 _).trans ?_
  exact congrArg (val_main_v29 (F := Ideal) x1) (funext fun a => by
    match a with | ⟨0, _⟩ => rfl | ⟨1, _⟩ => rfl | ⟨2, _⟩ => rfl)

/-- The scores at (b, h, s, t) are the specification's logit. -/
theorem logit_apply (x0 : (⟨S1024x128x768, .f32⟩ : BufTy).Contents (Elt Ideal)) (x1 : (⟨S31x8x8x8, .f32⟩ : BufTy).Contents (Elt Ideal)) (b : Fin 1024) (h : Fin 8) (s t : Fin 128) :
    val_main_v32 (F := Ideal) x0 x1 (ix4 b h s t) = logit x0 (val_main_v29 (F := Ideal) x1) b h s t := by
  show val_main_v8 (F := Ideal) x0 (ix4 b h s t) * val_main_v9 (F := Ideal) (ix4 b h s t)
      + val_main_v31 (F := Ideal) x1 (ix4 b h s t) = _
  rw [dot_apply, scale_apply, bias_apply]
  rfl

end Cert.RefAttn

end
-- ==== Proof.RefAttnMax.lean ====
/-
  The reference program's row maximum. The program folds the maximum over the last axis of the scores, starting from the
  word for minus infinity, and then takes the maximum with that word once more. The maximum on the extended reals is
  commutative and associative, so the fold over the axis is a fold over the 128 positions in any order: the
  specification's rowMax.
-/
import proofs.«120545_j67473936221011_1_alg».proof.Proof.RefAttnLogit

noncomputable section

open scoped BigOperators

namespace Cert.RefAttn

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx Cert.Attn

/-- The reduced index (b, h, s) with position k put back on the last axis is (b, h, s, k). -/
theorem lift_ix3 (hr : S1024x8x128x128.Reduces [3] S1024x8x128) (b : Fin 1024) (h : Fin 8) (s : Fin 128)
    (k : Fin (S1024x8x128x128.size 3)) : hr.lift (ix3 b h s) k = ix4 b h s (⟨k.val, k.isLt⟩ : Fin 128) := by
  funext c; apply Fin.ext
  fin_cases c <;> rfl

/-- The fold of the maximum over the last axis, at (b, h, s), is the fold over the positions t of the logit. -/
theorem fold_apply (x0 : (⟨S1024x128x768, .f32⟩ : BufTy).Contents (Elt Ideal)) (x1 : (⟨S31x8x8x8, .f32⟩ : BufTy).Contents (Elt Ideal)) (b : Fin 1024) (h : Fin 8) (s : Fin 128) :
    val_main_v33 (F := Ideal) x0 x1 (ix3 b h s)
      = (Finset.univ : Finset (Fin 128)).fold max negInf (fun t => logit x0 (val_main_v29 (F := Ideal) x1) b h s t) := by
  have hr : S1024x8x128x128.Reduces [3] S1024x8x128 := by decide
  unfold val_main_v33
  refine (Host.reduce_eq_fold_single (FloatOps.maximumf (F := Ideal) (φ := .f32)) (val_main_v32 (F := Ideal) x0 x1) (val_main_cst_2 (F := Ideal))
    reducesTo_S1024x8x128x128_S1024x8x128_d3 hr h_S_ (ix3 b h s)).trans ?_
  have hf : (val_main_v32 (F := Ideal) x0 x1 ∘ hr.lift (ix3 b h s))
      = fun t : Fin 128 => logit x0 (val_main_v29 (F := Ideal) x1) b h s t :=
    funext fun k => (congrArg (val_main_v32 (F := Ideal) x0 x1) (lift_ix3 hr b h s k)).trans
      (logit_apply x0 x1 b h s ⟨k.val, k.isLt⟩)
  exact congrArg (fun f => Finset.fold max negInf f (Finset.univ : Finset (Fin 128))) hf

/-- The broadcast word for minus infinity is the specification's negInf at every index. -/
theorem negInf_apply (i : S1024x8x128.Idx) : val_main_v34 (F := Ideal) i = negInf :=
  (val_main_v34_apply i).trans rfl

/-- The row maximum at (b, h, s) is the specification's rowMax. -/
theorem max_apply (x0 : (⟨S1024x128x768, .f32⟩ : BufTy).Contents (Elt Ideal)) (x1 : (⟨S31x8x8x8, .f32⟩ : BufTy).Contents (Elt Ideal)) (b : Fin 1024) (h : Fin 8) (s : Fin 128) :
    val_main_v35 (F := Ideal) x0 x1 (ix3 b h s) = rowMax x0 (val_main_v29 (F := Ideal) x1) b h s := by
  refine (val_main_v35_apply x0 x1 _).trans ?_
  rw [negInf_apply, fold_apply]
  rfl

end Cert.RefAttn

end
-- ==== Proof.RefAttnSoft.lean ====
/-
  The reference program's softmax. The row maximum is broadcast back along the last axis and subtracted from the scores;
  the exponential is taken; the exponentials are summed over the last axis from the word for zero; the sum is broadcast
  back and divides the exponentials. Read at (b, h, s, t) these are the specification's expo, rowSum and weight.
-/
import proofs.«120545_j67473936221011_1_alg».proof.Proof.RefAttnMax

noncomputable section

open scoped BigOperators

namespace Cert.RefAttn

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx Cert.Attn

/-- The row maximum broadcast along the last axis: at (b, h, s, t) it is the rowMax of (b, h, s). -/
theorem maxb_apply (x0 : (⟨S1024x128x768, .f32⟩ : BufTy).Contents (Elt Ideal)) (x1 : (⟨S31x8x8x8, .f32⟩ : BufTy).Contents (Elt Ideal)) (b : Fin 1024) (h : Fin 8) (s t : Fin 128) :
    val_main_v37 (F := Ideal) x0 x1 (ix4 b h s t) = rowMax x0 (val_main_v29 (F := Ideal) x1) b h s := by
  refine (val_main_v37_apply x0 x1 _).trans ?_
  refine (val_main_v36_apply x0 x1 _).trans ?_
  have e : idx_main_v36 (idx_main_v37 (ix4 b h s t)) = ix3 b h s := funext fun a => by
    match a with | ⟨0, _⟩ => rfl | ⟨1, _⟩ => rfl | ⟨2, _⟩ => rfl
  exact (congrArg (val_main_v35 (F := Ideal) x0 x1) e).trans (max_apply x0 x1 b h s)

/-- The shifted score at (b, h, s, t): the logit less its row's maximum. -/
theorem shift_apply (x0 : (⟨S1024x128x768, .f32⟩ : BufTy).Contents (Elt Ideal)) (x1 : (⟨S31x8x8x8, .f32⟩ : BufTy).Contents (Elt Ideal)) (b : Fin 1024) (h : Fin 8) (s t : Fin 128) :
    val_main_v38 (F := Ideal) x0 x1 (ix4 b h s t)
      = logit x0 (val_main_v29 (F := Ideal) x1) b h s t - rowMax x0 (val_main_v29 (F := Ideal) x1) b h s := by
  refine (val_main_v38_apply x0 x1 _).trans ?_
  rw [logit_apply, maxb_apply]
  rfl

/-- The exponential at (b, h, s, t) is the specification's expo. -/
theorem expo_apply (x0 : (⟨S1024x128x768, .f32⟩ : BufTy).Contents (Elt Ideal)) (x1 : (⟨S31x8x8x8, .f32⟩ : BufTy).Contents (Elt Ideal)) (b : Fin 1024) (h : Fin 8) (s t : Fin 128) :
    val_main_v39 (F := Ideal) x0 x1 (ix4 b h s t) = expo x0 (val_main_v29 (F := Ideal) x1) b h s t := by
  refine (val_main_v39_apply x0 x1 _).trans ?_
  rw [shift_apply]
  rfl

/-- The sum of the exponentials over the last axis, at (b, h, s), is the specification's rowSum: the sum starts from
    the word for zero, which is zero. -/
theorem sum_apply (x0 : (⟨S1024x128x768, .f32⟩ : BufTy).Contents (Elt Ideal)) (x1 : (⟨S31x8x8x8, .f32⟩ : BufTy).Contents (Elt Ideal)) (b : Fin 1024) (h : Fin 8) (s : Fin 128) :
    val_main_v40 (F := Ideal) x0 x1 (ix3 b h s) = rowSum x0 (val_main_v29 (F := Ideal) x1) b h s := by
  refine (val_main_v40_apply x0 x1 _).trans ?_
  have e0 : (val_main_cst_4 (F := Ideal) (Shape.Idx.first h_S_) : EReal) = 0 := Ideal.ofBits_zero_f32
  refine (congrArg (· + _) e0).trans ?_
  refine (zero_add _).trans ?_
  refine Finset.sum_congr rfl fun k _ => ?_
  have e : idx_main_v40 (ix3 b h s) k = ix4 b h s k := funext fun a => by
    match a with | ⟨0, _⟩ => rfl | ⟨1, _⟩ => rfl | ⟨2, _⟩ => rfl | ⟨3, _⟩ => rfl
  exact (congrArg (val_main_v39 (F := Ideal) x0 x1) e).trans (expo_apply x0 x1 b h s k)

/-- The row sum broadcast along the last axis: at (b, h, s, t) it is the rowSum of (b, h, s). -/
theorem sumb_apply (x0 : (⟨S1024x128x768, .f32⟩ : BufTy).Contents (Elt Ideal)) (x1 : (⟨S31x8x8x8, .f32⟩ : BufTy).Contents (Elt Ideal)) (b : Fin 1024) (h : Fin 8) (s t : Fin 128) :
    val_main_v42 (F := Ideal) x0 x1 (ix4 b h s t) = rowSum x0 (val_main_v29 (F := Ideal) x1) b h s := by
  refine (val_main_v42_apply x0 x1 _).trans ?_
  refine (val_main_v41_apply x0 x1 _).trans ?_
  have e : idx_main_v41 (idx_main_v42 (ix4 b h s t)) = ix3 b h s := funext fun a => by
    match a with | ⟨0, _⟩ => rfl | ⟨1, _⟩ => rfl | ⟨2, _⟩ => rfl
  exact (congrArg (val_main_v40 (F := Ideal) x0 x1) e).trans (sum_apply x0 x1 b h s)

/-- The quotient at (b, h, s, t) is the specification's weight. -/
theorem weight_apply (x0 : (⟨S1024x128x768, .f32⟩ : BufTy).Contents (Elt Ideal)) (x1 : (⟨S31x8x8x8, .f32⟩ : BufTy).Contents (Elt Ideal)) (b : Fin 1024) (h : Fin 8) (s t : Fin 128) :
    val_main_v43 (F := Ideal) x0 x1 (ix4 b h s t) = weight x0 (val_main_v29 (F := Ideal) x1) b h s t := by
  refine (val_main_v43_apply x0 x1 _).trans ?_
  rw [expo_apply, sumb_apply]
  rfl

end Cert.RefAttn

end
-- ==== Proof.RefAttn.lean ====
/-
  The reference program's result. The second contraction pairs the weights of row s with the value rows of head h over
  the 128 positions: the specification's headOut at (b, h, s, d). The program then moves the head axis behind the
  position axis and flattens head and lane into one column, 32 h + d; so column c of the result is lane c mod 32 of
  head c / 32, and the result is the specification's attn, index by index.
-/
import proofs.«120545_j67473936221011_1_alg».proof.Proof.RefAttnSoft

noncomputable section

open scoped BigOperators

namespace Cert.RefAttn

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx Cert.Attn

/-- The second contraction at (b, h, s, d) is the specification's headOut. -/
theorem head_apply (x0 : (⟨S1024x128x768, .f32⟩ : BufTy).Contents (Elt Ideal)) (x1 : (⟨S31x8x8x8, .f32⟩ : BufTy).Contents (Elt Ideal)) (b : Fin 1024) (h : Fin 8) (s : Fin 128) (d : Fin 32) :
    val_main_v44 (F := Ideal) x0 x1 (ix4 b h s d) = headOut x0 (val_main_v29 (F := Ideal) x1) b h s d := by
  refine (val_main_v44_apply x0 x1 _).trans ?_
  refine Finset.sum_congr rfl fun k _ => ?_
  have el : lidx_main_v44 (ix4 b h s d) k = ix4 b h s k := funext fun a => by
    match a with | ⟨0, _⟩ => rfl | ⟨1, _⟩ => rfl | ⟨2, _⟩ => rfl | ⟨3, _⟩ => rfl
  have er : ridx_main_v44 (ix4 b h s d) k = ix4 b h k d := funext fun a => by
    match a with | ⟨0, _⟩ => rfl | ⟨1, _⟩ => rfl | ⟨2, _⟩ => rfl | ⟨3, _⟩ => rfl
  rw [el, er, weight_apply, v_apply]

/-- The flat position (128 b + s) 256 + c splits into batch entry, position, head c / 32 and lane c mod 32. -/
theorem split3 (b s c : Nat) (hb : b < 1024) (hs : s < 128) (hc : c < 256) :
    ((b * 128 + s) * 256 + c) / 32768 = b ∧ ((b * 128 + s) * 256 + c) / 256 % 128 = s
      ∧ ((b * 128 + s) * 256 + c) / 32 % 8 = c / 32 ∧ ((b * 128 + s) * 256 + c) % 32 = c % 32 := by
  refine ⟨?_, ?_, ?_, ?_⟩ <;> omega

/-- The result at (b, s, c) is head c / 32's output at position s, lane c mod 32. -/
theorem out_apply (x0 : (⟨S1024x128x768, .f32⟩ : BufTy).Contents (Elt Ideal)) (x1 : (⟨S31x8x8x8, .f32⟩ : BufTy).Contents (Elt Ideal)) (b : Fin 1024) (s : Fin 128) (c : Fin 256) :
    val_main_v46 (F := Ideal) x0 x1 (ix3 b s c) = headOut x0 (val_main_v29 (F := Ideal) x1) b (colHead c) s (colLane c) := by
  refine (val_main_v46_apply x0 x1 _).trans ?_
  refine (val_main_v45_apply x0 x1 _).trans ?_
  obtain ⟨e0, e1, e2, e3⟩ := split3 b.val s.val c.val b.isLt s.isLt c.isLt
  have e : idx_main_v45 (idx_main_v46 (ix3 b s c)) = ix4 b (colHead c) s (colLane c) := funext fun a => by
    match a with
    | ⟨0, _⟩ => exact Fin.ext (by show ((b.val * 128 + s.val) * 256 + c.val) / 32768 = b.val; exact e0)
    | ⟨1, _⟩ => exact Fin.ext (by show ((b.val * 128 + s.val) * 256 + c.val) / 32 % 8 = c.val / 32; exact e2)
    | ⟨2, _⟩ => exact Fin.ext (by show ((b.val * 128 + s.val) * 256 + c.val) / 256 % 128 = s.val; exact e1)
    | ⟨3, _⟩ => exact Fin.ext (by show ((b.val * 128 + s.val) * 256 + c.val) % 32 = c.val % 32; exact e3)
  exact (congrArg (val_main_v44 (F := Ideal) x0 x1) e).trans (head_apply x0 x1 b (colHead c) s (colLane c))

/-- The reference program's result is the specification's attention of its first argument and the bias array its
    preceding operations make of the second. -/
theorem ref_eq (x0 : (⟨Cert.ReferenceIdeal.S1024x128x768, .f32⟩ : BufTy).Contents (Elt Ideal)) (x1 : (⟨Cert.ReferenceIdeal.S31x8x8x8, .f32⟩ : BufTy).Contents (Elt Ideal)) :
    Cert.ReferenceIdeal.Read.val_main_v46 (F := Ideal) x0 x1
      = Cert.Attn.attn x0 (Cert.ReferenceIdeal.Read.val_main_v29 (F := Ideal) x1) := by
  refine funext fun i => ?_
  obtain ⟨b, s, c, rfl⟩ : ∃ (b : Fin 1024) (s : Fin 128) (c : Fin 256), i = ix3 b s c := ⟨i 0, i 1, i 2, eq_ix3 i⟩
  exact (out_apply x0 x1 b s c).trans (attn_ix3 x0 (val_main_v29 (F := Ideal) x1) b s c).symm

end Cert.RefAttn

end
-- ==== Proof.Bias.lean ====
/-
  The bias array the kernel's region finds is the reference's bias stage.

  Before the region the kernel's program computes the bias array from the table argument by a chain of host
  operations: the 16 x 16 table of relative positions `i - j + 15` (wrapped by 31 where negative), a gather of the
  table's rows at those positions, a transpose, a reshape to [128, 128, 8] and a transpose to [8, 128, 128]. The
  reference applies the same operations, in the same order, to its table argument. So what the region finds in the bias
  array is the reference's stage of that name, applied to the kernel's table argument: the two are one chain of
  operations, compared operation by operation and never evaluated.
-/
import proofs.«120545_j67473936221011_1_alg».proof.Proof.Gen.KernelIdeal.Frame
import proofs.«120545_j67473936221011_1_alg».proof.Proof.Gen.ReferenceIdeal.Read
import Idealize.ShloMosaic.Lib.StableHlo.Run

set_option maxRecDepth 16384

noncomputable section

namespace Cert.AttnK

open Idealize.ShloMosaic Idealize.ShloMosaic.TcCoe Idealize.ShloMosaic.Tactic Idealize.ShloMosaic.StableHlo
open Idealize.SL Idealize.SL.Sem
open Cert.KernelIdeal Cert.KernelIdeal.Gen

variable {F : FTy → Type} [FloatOps F]
variable (m : (ℓ : Loc nD τ sig) → Buf (Elt F) ℓ)

open Cert.ReferenceIdeal.Read in
/-- The bias array as the region finds it is the reference's bias stage of the kernel's table argument. -/
theorem V_bias (c : Dev nD) :
    (V m c main_v18 : S8x128x128.Idx → Elt F .f32)
      = Cert.ReferenceIdeal.Read.val_main_v29 (F := F) (m ((c : Thread nD τ).loc main_arg1)) := by
  refine Eq.trans (b := ?y) ?h1 ?h2
  case h1 =>
    dsimp only [V, hostOps0]
    after_results
  case h2 =>
    unfold val_main_v29 val_main_v28 val_main_v27 val_main_v26 val_main_v25 val_main_v24 val_main_v23 val_main_v22
      val_main_c_1 val_main_v21 val_main_v20 val_main_c_0 val_main_v19 val_main_v18 val_main_c val_main_v17 val_main_v16
      val_main_v15 val_main_v14 val_main_v13 val_main_v12 val_main_v11
    rfl

end Cert.AttnK

end
-- ==== Proof.lean ====
/- The proof of `Cert.Claim`: the kernel's frame, the idealized kernel's frame, the idealized reference's frame, that
   the idealized kernel is the kernel's idealization (no operation was rewritten, so there is nothing to state), and that
   the idealized kernel and the idealized reference end with equal results on the extended reals.

   Both programs compute multi-head attention with an additive relative-position bias: for batch entry b, head h and
   positions s, t the logit is (query row s · key row t) · scale + bias(h, s, t); each row's softmax weights are
   exp (logit − row maximum) over their sum; the output is the weighted sum of the value rows (Proof/Spec.lean). The two
   programs differ only in how they lay the work out. The kernel walks the batch 32 entries per grid point and, inside
   a point, one entry per loop trip, computing the eight heads from column ranges of the entry's 128 x 768 slab and
   storing them side by side (Proof/HeadFn.lean, TripFn.lean, BlockFn.lean, ArrayK.lean). The reference reshapes and
   transposes the whole input into query, key and value arrays indexed (batch, head, position, lane), contracts with
   batch axes, and transposes back (Proof/RefAttn*.lean). Every sum is over the same index set on both sides and every
   operation is applied to the same operands, so no law of the extended reals beyond re-indexing is used and the
   precondition is never opened. The bias array is the same chain of host operations of the table argument in both
   programs (Proof/Bias.lean). -/
import proofs.«120545_j67473936221011_1_alg».proof.Defs
import proofs.«120545_j67473936221011_1_alg».proof.Proof.Gen.Kernel
import proofs.«120545_j67473936221011_1_alg».proof.Proof.Gen.Kernel.Skeleton
import proofs.«120545_j67473936221011_1_alg».proof.Proof.Gen.Kernel.Loops
import proofs.«120545_j67473936221011_1_alg».proof.Proof.Gen.Kernel.Launch
import proofs.«120545_j67473936221011_1_alg».proof.Proof.Gen.Kernel.Points
import proofs.«120545_j67473936221011_1_alg».proof.Proof.Gen.Kernel.Frame
import proofs.«120545_j67473936221011_1_alg».proof.Proof.Gen.KernelIdeal
import proofs.«120545_j67473936221011_1_alg».proof.Proof.Gen.KernelIdeal.Skeleton
import proofs.«120545_j67473936221011_1_alg».proof.Proof.Gen.KernelIdeal.Loops
import proofs.«120545_j67473936221011_1_alg».proof.Proof.Gen.KernelIdeal.Launch
import proofs.«120545_j67473936221011_1_alg».proof.Proof.Gen.KernelIdeal.Points
import proofs.«120545_j67473936221011_1_alg».proof.Proof.Gen.KernelIdeal.Frame
import proofs.«120545_j67473936221011_1_alg».proof.Proof.Gen.ReferenceIdeal
import proofs.«120545_j67473936221011_1_alg».proof.Proof.Gen.Pre_finite_inputs
import proofs.«120545_j67473936221011_1_alg».proof.Proof.Gen.KernelIdeal.Value
import proofs.«120545_j67473936221011_1_alg».proof.Proof.Gen.ReferenceIdeal.Run
import proofs.«120545_j67473936221011_1_alg».proof.Proof.Gen.ReferenceIdeal.Read
import proofs.«120545_j67473936221011_1_alg».proof.Proof.ArrayK
import proofs.«120545_j67473936221011_1_alg».proof.Proof.RefAttn
import proofs.«120545_j67473936221011_1_alg».proof.Proof.Bias
import Idealize.ShloMosaic.Adequacy
import Idealize.ShloMosaic.Init

noncomputable section

namespace Cert.Proof

open Idealize.ShloMosaic Idealize.SL.Sem Cert.Kernel

/-- The idealized reference's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- On the extended reals the kernel's result array ends at the specification of its input argument and of the bias array
    its host operations computed; the reference's at the specification of its input argument and of its bias stage;
    the arguments agree and the two bias arrays are one chain of operations of the table argument. -/
theorem algebraic : Cert.algebraic_KernelIdeal_ReferenceIdeal := by
  intro m ρ m' ρ' _ hagree
  refine ⟨fun c => Cert.Attn.attn (m ((c.tc : Thread Cert.KernelIdeal.nD Cert.KernelIdeal.τ).loc Cert.KernelIdeal.main_arg0))
    (Cert.KernelIdeal.Gen.V m c Cert.KernelIdeal.main_v18), Cert.AttnK.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v46_eq, Cert.RefAttn.ref_eq, (hagree c).1, (hagree c).2, ← Cert.AttnK.V_bias m c]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_ri, trivial, algebraic⟩

end Cert.Proof

end
